-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x300 : S_.BroadcastsInDim S20000x300 (![] : Fin 0 → Fin S20000x300.rank)
  reducesTo_S20000x300_S_d0_1 : S20000x300.ReducesTo [0, 1] S_
  bcast_S_S100000x16 : S_.BroadcastsInDim S100000x16 (![] : Fin 0 → Fin S100000x16.rank)
  reducesTo_S100000x16_S_d0_1 : S100000x16.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S2664x1024 : S_.BroadcastsInDim S2664x1024 (![] : Fin 0 → Fin S2664x1024.rank)
  reducesTo_S2664x1024_S_d0_1 : S2664x1024.ReducesTo [0, 1] S_
  bcast_S_S1024x117 : S_.BroadcastsInDim S1024x117 (![] : Fin 0 → Fin S1024x117.rank)
  reducesTo_S1024x117_S_d0_1 : S1024x117.ReducesTo [0, 1] S_
  bcast_S_S117 : S_.BroadcastsInDim S117 (![] : Fin 0 → Fin S117.rank)
  reducesTo_S117_S_d0 : S117.ReducesTo [0] S_

variable [Facts]

def fn_part3 {F : FTy → Type} [FloatOps F] (main_arg11 : FVec F S1024x117 .f32) (main_arg12 : FVec F S117 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x117 .f32 := Host.absf main_arg11
  let main_cst_20 : FVec F S_ .f32 := constant S_ .f32 0x7F800000#32
  let main_v55 : FVec F S1024x117 .f32 := broadcastInDim S1024x117 ![] bcast_S_S1024x117 main_cst_20
  let main_v56 : IVec S1024x117 1 := cmpf .olt main_v54 main_v55
  let main_c_21 : IVec S_ 1 := constantI S_ 1 1#1
  let main_v57 : IVec S_ 1 := (fun x v => Host.reduce IntOp.andi x v reducesTo_S1024x117_S_d0_1 h_S_) main_v56 main_c_21
  let main_v58 : IVec S_ 1 := andi main_v53 main_v57
  let main_v59 : FVec F S117 .f32 := Host.absf main_arg12
  let main_cst_22 : FVec F S_ .f32 := constant S_ .f32 0x7F800000#32
  let main_v60 : FVec F S117 .f32 := broadcastInDim S117 ![] bcast_S_S117 main_cst_22
  let main_v61 : IVec S117 1 := cmpf .olt main_v59 main_v60
  let main_c_23 : IVec S_ 1 := constantI S_ 1 1#1
  let main_v62 : IVec S_ 1 := (fun x v => Host.reduce IntOp.andi x v reducesTo_S117_S_d0 h_S_) main_v61 main_c_23
  let main_v63 : IVec S_ 1 := andi main_v58 main_v62
  main_v63

def fn_part2 {F : FTy → Type} [FloatOps F] (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_v33 : IVec S_ 1) : IVec S_ 1 :=
  let main_v34 : FVec F S600x300 .f32 := Host.absf main_arg7
  let main_cst_12 : FVec F S_ .f32 := constant S_ .f32 0x7F800000#32
  let main_v35 : FVec F S600x300 .f32 := broadcastInDim S600x300 ![] bcast_S_S600x300 main_cst_12
  let main_v36 : IVec S600x300 1 := cmpf .olt main_v34 main_v35
  let main_c_13 : IVec S_ 1 := constantI S_ 1 1#1
  let main_v37 : IVec S_ 1 := (fun x v => Host.reduce IntOp.andi x v reducesTo_S600x300_S_d0_1 h_S_) main_v36 main_c_13
  let main_v38 : IVec S_ 1 := andi main_v33 main_v37
  let main_v39 : FVec F S300 .f32 := Host.absf main_arg8
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S2664x1024 .f32 := Host.absf main_arg9
  let main_cst_16 : FVec F S_ .f32 := constant S_ .f32 0x7F800000#32
  let main_v45 : FVec F S2664x1024 .f32 := broadcastInDim S2664x1024 ![] bcast_S_S2664x1024 main_cst_16
  let main_v46 : IVec S2664x1024 1 := cmpf .olt main_v44 main_v45
  let main_c_17 : IVec S_ 1 := constantI S_ 1 1#1
  let main_v47 : IVec S_ 1 := (fun x v => Host.reduce IntOp.andi x v reducesTo_S2664x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S100000x16 .f32) (main_arg5 : FVec F S2048x1024 .f32) (main_arg6 : FVec F S1024 .f32) (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_v13 : IVec S_ 1) (main_v16 : IVec S20000x300 1) : IVec S_ 1 :=
  let main_c_5 : IVec S_ 1 := constantI S_ 1 1#1
  let main_v17 : IVec S_ 1 := (fun x v => Host.reduce IntOp.andi x v reducesTo_S20000x300_S_d0_1 h_S_) main_v16 main_c_5
  let main_v18 : IVec S_ 1 := andi main_v13 main_v17
  let main_v19 : FVec F S100000x16 .f32 := Host.absf main_arg4
  let main_cst_6 : FVec F S_ .f32 := constant S_ .f32 0x7F800000#32
  let main_v20 : FVec F S100000x16 .f32 := broadcastInDim S100000x16 ![] bcast_S_S100000x16 main_cst_6
  let main_v21 : IVec S100000x16 1 := cmpf .olt main_v19 main_v20
  let main_c_7 : IVec S_ 1 := constantI S_ 1 1#1
  let main_v22 : IVec S_ 1 := (fun x v => Host.reduce IntOp.andi x v reducesTo_S100000x16_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S20000x1024 .f32) (main_arg1 : FVec F S20000x1024 .f32) (main_arg2 : FVec F S20000x300 .f32) (main_arg3 : FVec F S20000x300 .f32) (main_arg4 : FVec F S100000x16 .f32) (main_arg5 : FVec F S2048x1024 .f32) (main_arg6 : FVec F S1024 .f32) (main_arg7 : FVec F S600x300 .f32) (main_arg8 : FVec F S300 .f32) (main_arg9 : FVec F S2664x1024 .f32) (main_arg10 : FVec F S1024 .f32) (main_arg11 : FVec F S1024x117 .f32) (main_arg12 : FVec F S117 .f32) (main_arg13 : IVec S100000 32) (main_arg14 : IVec S100000 32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x1024 .f32 := Host.absf main_arg1
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S20000x300 .f32 := Host.absf main_arg2
  let main_cst_2 : FVec F S_ .f32 := constant S_ .f32 0x7F800000#32
  let main_v10 : FVec F S20000x300 .f32 := broadcastInDim S20000x300 ![] bcast_S_S20000x300 main_cst_2
  let main_v11 : IVec S20000x300 1 := cmpf .olt main_v9 main_v10
  let main_c_3 : IVec S_ 1 := constantI S_ 1 1#1
  let main_v12 : IVec S_ 1 := (fun x v => Host.reduce IntOp.andi x v reducesTo_S20000x300_S_d0_1 h_S_) main_v11 main_c_3
  let main_v13 : IVec S_ 1 := andi main_v8 main_v12
  let main_v14 : FVec F S20000x300 .f32 := Host.absf main_arg3
  let main_cst_4 : FVec F S_ .f32 := constant S_ .f32 0x7F800000#32
  let main_v15 : FVec F S20000x300 .f32 := broadcastInDim S20000x300 ![] bcast_S_S20000x300 main_cst_4
  let main_v16 : IVec S20000x300 1 := cmpf .olt main_v14 main_v15
  fn_part1 (F := F) main_arg4 main_arg5 main_arg6 main_arg7 main_arg8 main_arg9 main_arg10 main_arg11 main_arg12 main_v13 main_v16
-- ==== Kernel.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S1024x1024 : Shape := ⟨2, ![1024, 1024]⟩
abbrev S300x300 : Shape := ⟨2, ![300, 300]⟩
abbrev S400x1024 : Shape := ⟨2, ![400, 1024]⟩
abbrev S400x300 : Shape := ⟨2, ![400, 300]⟩
abbrev S1x1024 : Shape := ⟨2, ![1, 1024]⟩
abbrev S1x300 : Shape := ⟨2, ![1, 300]⟩
abbrev S_ : Shape := ⟨0, ![]⟩
abbrev S100000x1 : Shape := ⟨2, ![100000, 1]⟩
abbrev S100000x1024 : Shape := ⟨2, ![100000, 1024]⟩
abbrev S100000x300 : Shape := ⟨2, ![100000, 300]⟩
abbrev S300x1024 : Shape := ⟨2, ![300, 1024]⟩
abbrev S16x1024 : Shape := ⟨2, ![16, 1024]⟩
abbrev S1024x128 : Shape := ⟨2, ![1024, 128]⟩
abbrev S128 : Shape := ⟨1, ![128]⟩
abbrev S100000x128 : Shape := ⟨2, ![100000, 128]⟩
abbrev S800x1024 : Shape := ⟨2, ![800, 1024]⟩
abbrev S800x300 : Shape := ⟨2, ![800, 300]⟩
abbrev S800x16 : Shape := ⟨2, ![800, 16]⟩
abbrev S800x128 : Shape := ⟨2, ![800, 128]⟩
abbrev S1x128 : Shape := ⟨2, ![1, 128]⟩
abbrev S100000x117 : Shape := ⟨2, ![100000, 117]⟩

abbrev nBuf : Space → Nat
  | .hbm => 80
  | .vmem => 38
  | .smem => 0
  | _ => 0

abbrev bufTy : (tb : Table) → Fin (tcTables nBuf tb) → BufTy
  | .hbm, ⟨0, _⟩ => ⟨S20000x1024, .f32⟩
  | .hbm, ⟨1, _⟩ => ⟨S20000x1024, .f32⟩
  | .hbm, ⟨2, _⟩ => ⟨S20000x300, .f32⟩
  | .hbm, ⟨3, _⟩ => ⟨S20000x300, .f32⟩
  | .hbm, ⟨4, _⟩ => ⟨S100000x16, .f32⟩
  | .hbm, ⟨5, _⟩ => ⟨S2048x1024, .f32⟩
  | .hbm, ⟨6, _⟩ => ⟨S1024, .f32⟩
  | .hbm, ⟨7, _⟩ => ⟨S600x300, .f32⟩
  | .hbm, ⟨8, _⟩ => ⟨S300, .f32⟩
  | .hbm, ⟨9, _⟩ => ⟨S2664x1024, .f32⟩
  | .hbm, ⟨10, _⟩ => ⟨S1024, .f32⟩
  | .hbm, ⟨11, _⟩ => ⟨S1024x117, .f32⟩
  | .hbm, ⟨12, _⟩ => ⟨S117, .f32⟩
  | .hbm, ⟨13, _⟩ => ⟨S100000, .i32⟩
  | .hbm, ⟨14, _⟩ => ⟨S100000, .i32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S300x300, .f32⟩
  | .hbm, ⟨20, _⟩ => ⟨S300x300, .bf16⟩
  | .hbm, ⟨21, _⟩ => ⟨S300x300, .f32⟩
  | .hbm, ⟨22, _⟩ => ⟨S300x300, .bf16⟩
  | .hbm, ⟨23, _⟩ => ⟨S20000x1024, .bf16⟩
  | .hbm, ⟨24, _⟩ => ⟨S20000x300, .bf16⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x1024, .bf16⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000x300, .bf16⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S100000x1024, .bf16⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000, .i32⟩
  | .hbm, ⟨59, _⟩ => ⟨S100000x1, .i32⟩
  | .hbm, ⟨60, _⟩ => ⟨S100000x300, .bf16⟩
  | .hbm, ⟨61, _⟩ => ⟨S1024x1024, .f32⟩
  | .hbm, ⟨62, _⟩ => ⟨S1024x1024, .bf16⟩
  | .hbm, ⟨63, _⟩ => ⟨S300x1024, .f32⟩
  | .hbm, ⟨64, _⟩ => ⟨S300x1024, .bf16⟩
  | .hbm, ⟨65, _⟩ => ⟨S16x1024, .f32⟩
  | .hbm, ⟨66, _⟩ => ⟨S16x1024, .bf16⟩
  | .hbm, ⟨67, _⟩ => ⟨S300x1024, .f32⟩
  | .hbm, ⟨68, _⟩ => ⟨S300x1024, .bf16⟩
  | .hbm, ⟨69, _⟩ => ⟨S1024x1024, .f32⟩
  | .hbm, ⟨70, _⟩ => ⟨S1024x1024, .bf16⟩
  | .hbm, ⟨71, _⟩ => ⟨S_, .i32⟩
  | .hbm, ⟨72, _⟩ => ⟨S_, .f32⟩
  | .hbm, ⟨73, _⟩ => ⟨S1024x128, .f32⟩
  | .hbm, ⟨74, _⟩ => ⟨S1024x128, .bf16⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S100000x128, .f32⟩
  | .hbm, ⟨79, _⟩ => ⟨S100000x117, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x300, .f32⟩
  | .local _ .vmem, ⟨5, _⟩ => ⟨S400x300, .f32⟩
  | .local _ .vmem, ⟨6, _⟩ => ⟨S400x300, .f32⟩
  | .local _ .vmem, ⟨7, _⟩ => ⟨S400x300, .f32⟩
  | .local _ .vmem, ⟨8, _⟩ => ⟨S1024x1024, .bf16⟩
  | .local _ .vmem, ⟨9, _⟩ => ⟨S1024x1024, .bf16⟩
  | .local _ .vmem, ⟨10, _⟩ => ⟨S1024, .f32⟩
  | .local _ .vmem, ⟨11, _⟩ => ⟨S300x300, .bf16⟩
  | .local _ .vmem, ⟨12, _⟩ => ⟨S300x300, .bf16⟩
  | .local _ .vmem, ⟨13, _⟩ => ⟨S300, .f32⟩
  | .local _ .vmem, ⟨14, _⟩ => ⟨S400x1024, .bf16⟩
  | .local _ .vmem, ⟨15, _⟩ => ⟨S400x1024, .bf16⟩
  | .local _ .vmem, ⟨16, _⟩ => ⟨S400x300, .bf16⟩
  | .local _ .vmem, ⟨17, _⟩ => ⟨S400x300, .bf16⟩
  | .local _ .vmem, ⟨18, _⟩ => ⟨S800x1024, .bf16⟩
  | .local _ .vmem, ⟨19, _⟩ => ⟨S800x1024, .bf16⟩
  | .local _ .vmem, ⟨20, _⟩ => ⟨S800x300, .bf16⟩
  | .local _ .vmem, ⟨21, _⟩ => ⟨S800x300, .bf16⟩
  | .local _ .vmem, ⟨22, _⟩ => ⟨S800x16, .f32⟩
  | .local _ .vmem, ⟨23, _⟩ => ⟨S800x16, .f32⟩
  | .local _ .vmem, ⟨24, _⟩ => ⟨S800x300, .bf16⟩
  | .local _ .vmem, ⟨25, _⟩ => ⟨S800x300, .bf16⟩
  | .local _ .vmem, ⟨26, _⟩ => ⟨S800x1024, .bf16⟩
  | .local _ .vmem, ⟨27, _⟩ => ⟨S800x1024, .bf16⟩
  | .local _ .vmem, ⟨28, _⟩ => ⟨S1024x1024, .bf16⟩
  | .local _ .vmem, ⟨29, _⟩ => ⟨S300x1024, .bf16⟩
  | .local _ .vmem, ⟨30, _⟩ => ⟨S16x1024, .bf16⟩
  | .local _ .vmem, ⟨31, _⟩ => ⟨S300x1024, .bf16⟩
  | .local _ .vmem, ⟨32, _⟩ => ⟨S1024x1024, .bf16⟩
  | .local _ .vmem, ⟨33, _⟩ => ⟨S1024, .f32⟩
  | .local _ .vmem, ⟨34, _⟩ => ⟨S1024x128, .bf16⟩
  | .local _ .vmem, ⟨35, _⟩ => ⟨S128, .f32⟩
  | .local _ .vmem, ⟨36, _⟩ => ⟨S800x128, .f32⟩
  | .local _ .vmem, ⟨37, _⟩ => ⟨S800x128, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_call0_v0 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg13_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem13_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x300 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S300x300 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S300 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x300 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x300 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S800x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S800x300 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S800x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S300x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S300x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S800x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  slices_S600x300_S300x300_0_0 : S600x300.Slices ![0, 0] S300x300
  slices_S600x300_S300x300_300_0 : S600x300.Slices ![300, 0] S300x300
  inb_S400x1024_S400x1024_0_0 : ∀ a, (![0, 0] : Fin 2 → Nat) a + S400x1024.size a ≤ S400x1024.size a
  h_S400x1024 : 0 < S400x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S400x1024 : S1x1024.Broadcasts S400x1024
  packedbf16_S400x1024_S400x1024_0_0 : (Rect.unit (s := S400x1024) ![0, 0] S400x1024.size inb_S400x1024_S400x1024_0_0).PackedRows (EltTy.packing .bf16)
  inb_S400x300_S400x300_0_0 : ∀ a, (![0, 0] : Fin 2 → Nat) a + S400x300.size a ≤ S400x300.size a
  h_S400x300 : 0 < S400x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S300_S300_0 : ∀ a, (![0] : Fin 1 → Nat) a + S300.size a ≤ S300.size a
  h_S300 : 0 < S300.numel
  shapeCasts_S300_S1x300 : S300.ShapeCasts S1x300
  broadcasts_S1x300_S400x300 : S1x300.Broadcasts S400x300
  packedbf16_S400x300_S400x300_0_0 : (Rect.unit (s := S400x300) ![0, 0] S400x300.size inb_S400x300_S400x300_0_0).PackedRows (EltTy.packing .bf16)
  bcast_S_S100000 : S_.BroadcastsInDim S100000 (![] : Fin 0 → Fin S100000.rank)
  bcast_S100000_S100000x1_0 : S100000.BroadcastsInDim S100000x1 (![0] : Fin 1 → Fin S100000x1.rank)
  slices_S2664x1024_S1024x1024_0_0 : S2664x1024.Slices ![0, 0] S1024x1024
  slices_S2664x1024_S300x1024_1024_0 : S2664x1024.Slices ![1024, 0] S300x1024
  slices_S2664x1024_S16x1024_1324_0 : S2664x1024.Slices ![1324, 0] S16x1024
  slices_S2664x1024_S300x1024_1340_0 : S2664x1024.Slices ![1340, 0] S300x1024
  slices_S2664x1024_S1024x1024_1640_0 : S2664x1024.Slices ![1640, 0] S1024x1024
  pads_S1024x117_S1024x128_000_0110 : S1024x117.Pads (![0, 0] : Fin 2 → Nat) ![0, 11] ![0, 0] S1024x128
  h_S_ : 0 < S_.numel
  pads_S117_S128_0110 : S117.Pads (![0] : Fin 1 → Nat) ![11] ![0] S128
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  inb_S800x300_S800x300_0_0 : ∀ a, (![0, 0] : Fin 2 → Nat) a + S800x300.size a ≤ S800x300.size a
  h_S800x300 : 0 < S800x300.numel
  shapeCasts_S800x300_S800x300 : S800x300.ShapeCasts S800x300
  inb_S300x1024_S300x1024_0_0 : ∀ a, (![0, 0] : Fin 2 → Nat) a + S300x1024.size a ≤ S300x1024.size a
  h_S300x1024 : 0 < S300x1024.numel
  shapeCasts_S300x1024_S300x1024 : S300x1024.ShapeCasts S300x1024
  inb_S800x16_S800x16_0_0 : ∀ a, (![0, 0] : Fin 2 → Nat) a + S800x16.size a ≤ S800x16.size a
  h_S800x16 : 0 < S800x16.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  broadcasts_S1x1024_S800x1024 : S1x1024.Broadcasts S800x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S800x128 : S1x128.Broadcasts S800x128
  inb_S800x128_S800x128_0_0 : ∀ a, (![0, 0] : Fin 2 → Nat) a + S800x128.size a ≤ S800x128.size a
  h_S800x128 : 0 < S800x128.numel
  slices_S100000x128_S100000x117_0_0 : S100000x128.Slices ![0, 0] S100000x117
  dot_S400x1024_S1024x1024_S400x1024_1_0_0_1_n_n_wf : DotDims.WF S400x1024 S1024x1024 S400x1024 [1] [0] [0] [1] [] []
  dot_S400x300_S300x300_S400x300_1_0_0_1_n_n_wf : DotDims.WF S400x300 S300x300 S400x300 [1] [0] [0] [1] [] []
  gather_S20000x1024_S100000x1_S100000x1024_1_0_n_n_0_1_11024_wf : GatherDims.WF S20000x1024 S100000x1 S100000x1024 [1] [0] [] [0] [] 1 ![1, 1024]
  gather_S20000x300_S100000x1_S100000x300_1_0_n_n_0_1_1300_wf : GatherDims.WF S20000x300 S100000x1 S100000x300 [1] [0] [] [0] [] 1 ![1, 300]
  dot_S800x1024_S1024x1024_S800x1024_1_0_0_1_n_n_wf : DotDims.WF S800x1024 S1024x1024 S800x1024 [1] [0] [0] [1] [] []
  dot_S800x300_S300x1024_S800x1024_1_0_0_1_n_n_wf : DotDims.WF S800x300 S300x1024 S800x1024 [1] [0] [0] [1] [] []
  dot_S800x16_S16x1024_S800x1024_1_0_0_1_n_n_wf : DotDims.WF S800x16 S16x1024 S800x1024 [1] [0] [0] [1] [] []
  dot_S800x1024_S1024x128_S800x128_1_0_0_1_n_n_wf : DotDims.WF S800x1024 S1024x128 S800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1024.size a ≤ S20000x1024.size a
  hwx0_0 : ∀ i : grid0.Coords, EltTy.bits .f32 = 32 ∨ (Rect.block (s := S20000x1024) S400x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1024.size a ≤ S20000x1024.size a
  hwx0_1 : ∀ i : grid0.Coords, EltTy.bits .f32 = 32 ∨ (Rect.block (s := S20000x1024) S400x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x300.size a ≤ S20000x300.size a
  hwx0_2 : ∀ i : grid0.Coords, EltTy.bits .f32 = 32 ∨ (Rect.block (s := S20000x300) S400x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x300.size a ≤ S20000x300.size a
  hwx0_3 : ∀ i : grid0.Coords, EltTy.bits .f32 = 32 ∨ (Rect.block (s := S20000x300) S400x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x300.size a ≤ S300x300.size a
  hwx0_7 : ∀ i : grid0.Coords, EltTy.bits .bf16 = 32 ∨ (Rect.block (s := S300x300) S300x300.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S300x300.size a ≤ S300x300.size a
  hwx0_8 : ∀ i : grid0.Coords, EltTy.bits .bf16 = 32 ∨ (Rect.block (s := S300x300) S300x300.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S300.size a ≤ S300.size a
  hwx0_9 : ∀ i : grid0.Coords, EltTy.bits .f32 = 32 ∨ (Rect.block (s := S300) S300.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x1024.size a ≤ S20000x1024.size a
  hwx0_10 : ∀ i : grid0.Coords, EltTy.bits .bf16 = 32 ∨ (Rect.block (s := S20000x1024) S400x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x300.size a ≤ S20000x300.size a
  hwx0_11 : ∀ i : grid0.Coords, EltTy.bits .bf16 = 32 ∨ (Rect.block (s := S20000x300) S400x300.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x1024.size a ≤ S100000x1024.size a
  hwx1_0 : ∀ i : grid1.Coords, EltTy.bits .bf16 = 32 ∨ (Rect.block (s := S100000x1024) S800x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x300.size a ≤ S100000x300.size a
  hwx1_1 : ∀ i : grid1.Coords, EltTy.bits .bf16 = 32 ∨ (Rect.block (s := S100000x300) S800x300.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x16.size a ≤ S100000x16.size a
  hwx1_2 : ∀ i : grid1.Coords, EltTy.bits .f32 = 32 ∨ (Rect.block (s := S100000x16) S800x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S800x300.size a ≤ S100000x300.size a
  hwx1_3 : ∀ i : grid1.Coords, EltTy.bits .bf16 = 32 ∨ (Rect.block (s := S100000x300) S800x300.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S800x1024.size a ≤ S100000x1024.size a
  hwx1_4 : ∀ i : grid1.Coords, EltTy.bits .bf16 = 32 ∨ (Rect.block (s := S100000x1024) S800x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S300x1024.size a ≤ S300x1024.size a
  hwx1_6 : ∀ i : grid1.Coords, EltTy.bits .bf16 = 32 ∨ (Rect.block (s := S300x1024) S300x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x1024.size a ≤ S16x1024.size a
  hwx1_7 : ∀ i : grid1.Coords, EltTy.bits .bf16 = 32 ∨ (Rect.block (s := S16x1024) S16x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S300x1024.size a ≤ S300x1024.size a
  hwx1_8 : ∀ i : grid1.Coords, EltTy.bits .bf16 = 32 ∨ (Rect.block (s := S300x1024) S300x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S1024x1024.size a
  hwx1_9 : ∀ i : grid1.Coords, EltTy.bits .bf16 = 32 ∨ (Rect.block (s := S1024x1024) S1024x1024.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024.size a ≤ S1024.size a
  hwx1_10 : ∀ i : grid1.Coords, EltTy.bits .f32 = 32 ∨ (Rect.block (s := S1024) S1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x128.size a ≤ S1024x128.size a
  hwx1_11 : ∀ i : grid1.Coords, EltTy.bits .bf16 = 32 ∨ (Rect.block (s := S1024x128) S1024x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S800x128.size a ≤ S100000x128.size a
  hwx1_13 : ∀ i : grid1.Coords, EltTy.bits .f32 = 32 ∨ (Rect.block (s := S100000x128) S800x128.size (cc1_transform_13 i) (hinb1_13 i)).WholeWords (EltTy.packing .f32)

variable [Facts₀]

def dot_S400x1024_S1024x1024_S400x1024_1_0_0_1_n_n : DotDims S400x1024 S1024x1024 S400x1024 where
  lhsContracting := [1]
  rhsContracting := [0]
  lhsNonContracting := [0]
  rhsNonContracting := [1]
  lhsBatch := []
  rhsBatch := []
  wf := dot_S400x1024_S1024x1024_S400x1024_1_0_0_1_n_n_wf
def dot_S400x300_S300x300_S400x300_1_0_0_1_n_n : DotDims S400x300 S300x300 S400x300 where
  lhsContracting := [1]
  rhsContracting := [0]
  lhsNonContracting := [0]
  rhsNonContracting := [1]
  lhsBatch := []
  rhsBatch := []
  wf := dot_S400x300_S300x300_S400x300_1_0_0_1_n_n_wf
def gather_S20000x1024_S100000x1_S100000x1024_1_0_n_n_0_1_11024 : GatherDims S20000x1024 S100000x1 S100000x1024 where
  offsetDims := [1]
  collapsedSliceDims := [0]
  operandBatchingDims := []
  startIndicesBatchingDims := []
  startIndexMap := [0]
  indexVectorDim := 1
  sliceSizes := ![1, 1024]
  wf := gather_S20000x1024_S100000x1_S100000x1024_1_0_n_n_0_1_11024_wf
def gather_S20000x300_S100000x1_S100000x300_1_0_n_n_0_1_1300 : GatherDims S20000x300 S100000x1 S100000x300 where
  offsetDims := [1]
  collapsedSliceDims := [0]
  operandBatchingDims := []
  startIndicesBatchingDims := []
  startIndexMap := [0]
  indexVectorDim := 1
  sliceSizes := ![1, 300]
  wf := gather_S20000x300_S100000x1_S100000x300_1_0_n_n_0_1_1300_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf
def dot_S800x300_S300x1024_S800x1024_1_0_0_1_n_n : DotDims S800x300 S300x1024 S800x1024 where
  lhsContracting := [1]
  rhsContracting := [0]
  lhsNonContracting := [0]
  rhsNonContracting := [1]
  lhsBatch := []
  rhsBatch := []
  wf := dot_S800x300_S300x1024_S800x1024_1_0_0_1_n_n_wf
def dot_S800x16_S16x1024_S800x1024_1_0_0_1_n_n : DotDims S800x16 S16x1024 S800x1024 where
  lhsContracting := [1]
  rhsContracting := [0]
  lhsNonContracting := [0]
  rhsNonContracting := [1]
  lhsBatch := []
  rhsBatch := []
  wf := dot_S800x16_S16x1024_S800x1024_1_0_0_1_n_n_wf
def dot_S800x1024_S1024x128_S800x128_1_0_0_1_n_n : DotDims S800x1024 S1024x128 S800x128 where
  lhsContracting := [1]
  rhsContracting := [0]
  lhsNonContracting := [0]
  rhsNonContracting := [1]
  lhsBatch := []
  rhsBatch := []
  wf := dot_S800x1024_S1024x128_S800x128_1_0_0_1_n_n_wf

abbrev win0_0 : Pipeline.Window sig grid0 :=
  Pipeline.Window.ofSpec (Memref.whole main_arg0) S400x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S300x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S300x300.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S300.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S400x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S400x300.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v15) S800x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S800x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S800x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S800x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S800x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S300x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S16x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S300x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46) S1024x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v48) S1024x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v49) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v50) S800x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S20000x1024 : Shape := ⟨2, ![20000, 1024]⟩
abbrev S20000x300 : Shape := ⟨2, ![20000, 300]⟩
abbrev S100000x16 : Shape := ⟨2, ![100000, 16]⟩
abbrev S2048x1024 : Shape := ⟨2, ![2048, 1024]⟩
abbrev S1024 : Shape := ⟨1, ![1024]⟩
abbrev S600x300 : Shape := ⟨2, ![600, 300]⟩
abbrev S300 : Shape := ⟨1, ![300]⟩
abbrev S2664x1024 : Shape := ⟨2, ![2664, 1024]⟩
abbrev S1024x117 : Shape := ⟨2, ![1024, 117]⟩
abbrev S117 : Shape := ⟨1, ![117]⟩
abbrev S100000 : Shape := ⟨1, ![100000]⟩
abbrev S20000x2048 : Shape := ⟨2, ![20000, 2048]⟩
abbrev S1x1024 : Shape := ⟨2, ![1, 1024]⟩
abbrev S_ : Shape := ⟨0, ![]⟩
abbrev S20000x600 : Shape := ⟨2, ![20000, 600]⟩
abbrev S1x300 : Shape := ⟨2, ![1, 300]⟩
abbrev S100000x1 : Shape := ⟨2, ![100000, 1]⟩
abbrev S100000x1024 : Shape := ⟨2, ![100000, 1024]⟩
abbrev S100000x300 : Shape := ⟨2, ![100000, 300]⟩
abbrev S100000x2664 : Shape := ⟨2, ![100000, 2664]⟩
abbrev S100000x117 : Shape := ⟨2, ![100000, 117]⟩
abbrev S1x117 : Shape := ⟨2, ![1, 117]⟩

abbrev nBuf : Space → Nat
  | .hbm => 79
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S20000x1024, .f32⟩
  | .hbm, ⟨2, _⟩ => ⟨S20000x300, .f32⟩
  | .hbm, ⟨3, _⟩ => ⟨S20000x300, .f32⟩
  | .hbm, ⟨4, _⟩ => ⟨S100000x16, .f32⟩
  | .hbm, ⟨5, _⟩ => ⟨S2048x1024, .f32⟩
  | .hbm, ⟨6, _⟩ => ⟨S1024, .f32⟩
  | .hbm, ⟨7, _⟩ => ⟨S600x300, .f32⟩
  | .hbm, ⟨8, _⟩ => ⟨S300, .f32⟩
  | .hbm, ⟨9, _⟩ => ⟨S2664x1024, .f32⟩
  | .hbm, ⟨10, _⟩ => ⟨S1024, .f32⟩
  | .hbm, ⟨11, _⟩ => ⟨S1024x117, .f32⟩
  | .hbm, ⟨12, _⟩ => ⟨S117, .f32⟩
  | .hbm, ⟨13, _⟩ => ⟨S100000, .i32⟩
  | .hbm, ⟨14, _⟩ => ⟨S100000, .i32⟩
  | .hbm, ⟨15, _⟩ => ⟨S20000x2048, .f32⟩
  | .hbm, ⟨16, _⟩ => ⟨S20000x1024, .f32⟩
  | .hbm, ⟨17, _⟩ => ⟨S1x1024, .f32⟩
  | .hbm, ⟨18, _⟩ => ⟨S20000x1024, .f32⟩
  | .hbm, ⟨19, _⟩ => ⟨S20000x1024, .f32⟩
  | .hbm, ⟨20, _⟩ => ⟨S_, .f32⟩
  | .hbm, ⟨21, _⟩ => ⟨S20000x1024, .f32⟩
  | .hbm, ⟨22, _⟩ => ⟨S20000x1024, .f32⟩
  | .hbm, ⟨23, _⟩ => ⟨S20000x600, .f32⟩
  | .hbm, ⟨24, _⟩ => ⟨S20000x300, .f32⟩
  | .hbm, ⟨25, _⟩ => ⟨S1x300, .f32⟩
  | .hbm, ⟨26, _⟩ => ⟨S20000x300, .f32⟩
  | .hbm, ⟨27, _⟩ => ⟨S20000x300, .f32⟩
  | .hbm, ⟨28, _⟩ => ⟨S_, .f32⟩
  | .hbm, ⟨29, _⟩ => ⟨S20000x300, .f32⟩
  | .hbm, ⟨30, _⟩ => ⟨S20000x300, .f32⟩
  | .hbm, ⟨31, _⟩ => ⟨S_, .i32⟩
  | .hbm, ⟨32, _⟩ => ⟨S100000, .i32⟩
  | .hbm, ⟨33, _⟩ => ⟨S100000, .i1⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S100000, .i32⟩
  | .hbm, ⟨38, _⟩ => ⟨S100000x1, .i32⟩
  | .hbm, ⟨39, _⟩ => ⟨S100000x1024, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x300, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x300, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S100000x1024, .f32⟩
  | .hbm, ⟨67, _⟩ => ⟨S100000x2664, .f32⟩
  | .hbm, ⟨68, _⟩ => ⟨S100000x1024, .f32⟩
  | .hbm, ⟨69, _⟩ => ⟨S1x1024, .f32⟩
  | .hbm, ⟨70, _⟩ => ⟨S100000x1024, .f32⟩
  | .hbm, ⟨71, _⟩ => ⟨S100000x1024, .f32⟩
  | .hbm, ⟨72, _⟩ => ⟨S_, .f32⟩
  | .hbm, ⟨73, _⟩ => ⟨S100000x1024, .f32⟩
  | .hbm, ⟨74, _⟩ => ⟨S100000x1024, .f32⟩
  | .hbm, ⟨75, _⟩ => ⟨S100000x117, .f32⟩
  | .hbm, ⟨76, _⟩ => ⟨S1x117, .f32⟩
  | .hbm, ⟨77, _⟩ => ⟨S100000x117, .f32⟩
  | .hbm, ⟨78, _⟩ => ⟨S100000x117, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]

class Facts₀ : Prop where
  concatenates_S20000x1024_S20000x1024_S20000x2048_d1 : Shape.Concatenates [S20000x1024, S20000x1024] S20000x2048 1
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  concatenates_S20000x300_S20000x300_S20000x600_d1 : Shape.Concatenates [S20000x300, S20000x300] S20000x600 1
  bcast_S300_S1x300_1 : S300.BroadcastsInDim S1x300 (![1] : Fin 1 → Fin S1x300.rank)
  bcast_S1x300_S20000x300_0_1 : S1x300.BroadcastsInDim S20000x300 (![0, 1] : Fin 2 → Fin S20000x300.rank)
  bcast_S_S20000x300 : S_.BroadcastsInDim S20000x300 (![] : Fin 0 → Fin S20000x300.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1024_S100000x300_S100000x16_S100000x300_S100000x1024_S100000x2664_d1 : Shape.Concatenates [S100000x1024, S100000x300, S100000x16, S100000x300, S100000x1024] S100000x2664 1
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S117_S1x117_1 : S117.BroadcastsInDim S1x117 (![1] : Fin 1 → Fin S1x117.rank)
  bcast_S1x117_S100000x117_0_1 : S1x117.BroadcastsInDim S100000x117 (![0, 1] : Fin 2 → Fin S100000x117.rank)
  dot_S20000x2048_S2048x1024_S20000x1024_1_0_0_1_n_n_wf : DotDims.WF S20000x2048 S2048x1024 S20000x1024 [1] [0] [0] [1] [] []
  dot_S20000x600_S600x300_S20000x300_1_0_0_1_n_n_wf : DotDims.WF S20000x600 S600x300 S20000x300 [1] [0] [0] [1] [] []
  gather_S20000x1024_S100000x1_S100000x1024_1_0_n_n_0_1_11024_wf : GatherDims.WF S20000x1024 S100000x1 S100000x1024 [1] [0] [] [0] [] 1 ![1, 1024]
  gather_S20000x300_S100000x1_S100000x300_1_0_n_n_0_1_1300_wf : GatherDims.WF S20000x300 S100000x1 S100000x300 [1] [0] [] [0] [] 1 ![1, 300]
  dot_S100000x2664_S2664x1024_S100000x1024_1_0_0_1_n_n_wf : DotDims.WF S100000x2664 S2664x1024 S100000x1024 [1] [0] [0] [1] [] []
  dot_S100000x1024_S1024x117_S100000x117_1_0_0_1_n_n_wf : DotDims.WF S100000x1024 S1024x117 S100000x117 [1] [0] [0] [1] [] []

variable [Facts₀]

def dot_S20000x2048_S2048x1024_S20000x1024_1_0_0_1_n_n : DotDims S20000x2048 S2048x1024 S20000x1024 where
  lhsContracting := [1]
  rhsContracting := [0]
  lhsNonContracting := [0]
  rhsNonContracting := [1]
  lhsBatch := []
  rhsBatch := []
  wf := dot_S20000x2048_S2048x1024_S20000x1024_1_0_0_1_n_n_wf
def dot_S20000x600_S600x300_S20000x300_1_0_0_1_n_n : DotDims S20000x600 S600x300 S20000x300 where
  lhsContracting := [1]
  rhsContracting := [0]
  lhsNonContracting := [0]
  rhsNonContracting := [1]
  lhsBatch := []
  rhsBatch := []
  wf := dot_S20000x600_S600x300_S20000x300_1_0_0_1_n_n_wf
def gather_S20000x1024_S100000x1_S100000x1024_1_0_n_n_0_1_11024 : GatherDims S20000x1024 S100000x1 S100000x1024 where
  offsetDims := [1]
  collapsedSliceDims := [0]
  operandBatchingDims := []
  startIndicesBatchingDims := []
  startIndexMap := [0]
  indexVectorDim := 1
  sliceSizes := ![1, 1024]
  wf := gather_S20000x1024_S100000x1_S100000x1024_1_0_n_n_0_1_11024_wf
def gather_S20000x300_S100000x1_S100000x300_1_0_n_n_0_1_1300 : GatherDims S20000x300 S100000x1 S100000x300 where
  offsetDims := [1]
  collapsedSliceDims := [0]
  operandBatchingDims := []
  startIndicesBatchingDims := []
  startIndexMap := [0]
  indexVectorDim := 1
  sliceSizes := ![1, 300]
  wf := gather_S20000x300_S100000x1_S100000x300_1_0_n_n_0_1_1300_wf
def dot_S100000x2664_S2664x1024_S100000x1024_1_0_0_1_n_n : DotDims S100000x2664 S2664x1024 S100000x1024 where
  lhsContracting := [1]
  rhsContracting := [0]
  lhsNonContracting := [0]
  rhsNonContracting := [1]
  lhsBatch := []
  rhsBatch := []
  wf := dot_S100000x2664_S2664x1024_S100000x1024_1_0_0_1_n_n_wf
def dot_S100000x1024_S1024x117_S100000x117_1_0_0_1_n_n : DotDims S100000x1024 S1024x117 S100000x117 where
  lhsContracting := [1]
  rhsContracting := [0]
  lhsNonContracting := [0]
  rhsNonContracting := [1]
  lhsBatch := []
  rhsBatch := []
  wf := dot_S100000x1024_S1024x117_S100000x117_1_0_0_1_n_n_wf

class Facts : Prop extends Facts₀ where

variable [Facts]
-- ==== Proof.KernelRun.lean ====
/-
  The idealized kernel's run with its result named.

  The program is two grid launches among stretches of host operations.  Every weakly fair execution terminates with
  every buffer that outlives the launches at the contents obtained by folding the stretches and the launches over the
  launch memory; in particular the result buffer ends at that fold's value, and the fifteen argument arrays end as
  they were launched.
-/
import proofs.«160440_j44023414784183_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.RunValue

end
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.Spec.lean ====
/-
  The function both programs compute, written once over the extended reals, index by index.

  A graph network's edge read-out.  Every node has two feature vectors; each goes through one dense layer with a
  rectifier whose input is two arrays laid side by side, so the layer's matrix product splits into the product of the
  first array with the matrix's upper rows plus the product of the second with its lower rows.  Every edge then reads
  the two updated vectors of its destination node and of its source node (a row gather at an integer index array),
  lays them beside the edge's own spatial features, and sends that row of 2664 numbers through a hidden layer with a
  rectifier and a final affine layer of 117 outputs.  The hidden layer's product over the 2664 columns is again a sum of
  five products, one per piece, each against its own band of rows of the weight matrix.
-/
import Idealize.ShloMosaic.Lib.ValueIdx
import Idealize.ShloMosaic.PureOps.Ideal.Laws

noncomputable section

namespace Cert.EdgeSpec

open Idealize.ShloMosaic Idealize.ShloMosaic.ValueIdx

/-- A matrix of extended reals with literal extents. -/
abbrev Mat (a b : Nat) := (⟨2, ![a, b]⟩ : Shape).Idx → EReal
/-- A vector of extended reals with a literal extent. -/
abbrev Row (a : Nat) := (⟨1, ![a]⟩ : Shape).Idx → EReal

/-- Row `p` of `x` against the band of `K` rows of `w` that starts at row `off`, at column `q`:
    the sum over `k < K` of `x (p, k) · w (off + k, q)`. -/
def band {M K K' N : Nat} (x : Mat M K) (w : Mat K' N) (off : Nat) (h : off + K ≤ K') (p : Fin M) (q : Fin N) : EReal :=
  ∑ k : Fin K, x (ix2 p k) * w (ix2 (⟨off + k.val, by omega⟩ : Fin K') q)

/-- The visual node update: rectified `[x1 | x2] · W + b`, the product split at the join. -/
def nodeVis (x1 x2 : Mat 20000 1024) (w : Mat 2048 1024) (b : Row 1024) : Mat 20000 1024 :=
  fun i => max ((band x1 w 0 (by omega) (i 0) (i 1) + band x2 w 1024 (by omega) (i 0) (i 1)) + b (ix1 (i 1))) 0

/-- The language node update: rectified `[x1 | x2] · W + b`, the product split at the join. -/
def nodeLang (x1 x2 : Mat 20000 300) (w : Mat 600 300) (b : Row 300) : Mat 20000 300 :=
  fun i => max ((band x1 w 0 (by omega) (i 0) (i 1) + band x2 w 300 (by omega) (i 0) (i 1)) + b (ix1 (i 1))) 0

/-- The edge classifier's hidden layer: the five pieces of an edge's row, each against its own band of rows of the
    weight matrix, summed left to right, plus the bias, rectified. -/
def hidden (fd : Mat 100000 1024) (ld : Mat 100000 300) (sf : Mat 100000 16) (ls : Mat 100000 300) (fs : Mat 100000 1024)
    (w : Mat 2664 1024) (b : Row 1024) : Mat 100000 1024 :=
  fun i => max ((((((band fd w 0 (by omega) (i 0) (i 1) + band ld w 1024 (by omega) (i 0) (i 1))
    + band sf w 1324 (by omega) (i 0) (i 1)) + band ls w 1340 (by omega) (i 0) (i 1))
    + band fs w 1640 (by omega) (i 0) (i 1)) + b (ix1 (i 1)))) 0

/-- The classifier's output layer: `h · W + b`, 117 logits per edge. -/
def logits (h : Mat 100000 1024) (w : Mat 1024 117) (b : Row 117) : Mat 100000 117 :=
  fun i => band h w 0 (by omega) (i 0) (i 1) + b (ix1 (i 1))

/-- The whole read-out as one function of the fifteen arguments: the two node updates, the four row gathers (the
    destination's and the source's index arrays `idxd`, `idxs` arrive already brought into range and shaped as one
    column; `dv`, `dl` are the gathers' dimension numbers), the hidden layer and the logits. -/
def pred (nfo nnf : Mat 20000 1024) (w2v nnfl : Mat 20000 300) (sf : Mat 100000 16) (wn : Mat 2048 1024) (bn : Row 1024)
    (wl : Mat 600 300) (bl : Row 300) (we1 : Mat 2664 1024) (be1 : Row 1024) (we2 : Mat 1024 117) (be2 : Row 117)
    (dv : GatherDims ⟨2, ![20000, 1024]⟩ ⟨2, ![100000, 1]⟩ ⟨2, ![100000, 1024]⟩)
    (dl : GatherDims ⟨2, ![20000, 300]⟩ ⟨2, ![100000, 1]⟩ ⟨2, ![100000, 300]⟩)
    (idxd idxs : IVec ⟨2, ![100000, 1]⟩ 32) : Mat 100000 117 :=
  logits (hidden (Host.gather dv (nodeVis nfo nnf wn bn) idxd) (Host.gather dl (nodeLang w2v nnfl wl bl) idxd) sf
    (Host.gather dl (nodeLang w2v nnfl wl bl) idxs) (Host.gather dv (nodeVis nfo nnf wn bn) idxs) we1 be1) we2 be2

end Cert.EdgeSpec

end
-- ==== Proof.KForm.lean ====
/-
  The three matrix-product shapes the kernel's two grid bodies compute, over the extended reals, with the weight
  matrix of each product already cut out as its own array; and each shape rewritten over the uncut weight matrix, where
  a cut-out band of rows is the band the specification names.
-/
import proofs.«160440_j44023414784183_2_alg».proof.Proof.Spec

noncomputable section

namespace Cert.KForm

open Idealize.ShloMosaic Idealize.ShloMosaic.ValueIdx Cert.EdgeSpec

/-- Row `p` of `x` against column `q` of `w`: the sum over `k < K` of `x (p, k) · w (k, q)`. -/
def dot {M K N : Nat} (x : Mat M K) (w : Mat K N) (p : Fin M) (q : Fin N) : EReal :=
  ∑ k : Fin K, x (ix2 p k) * w (ix2 k q)

/-- A dense layer with a rectifier whose two inputs have their own weight matrices: `max ((x1·w1 + x2·w2) + b, 0)`. -/
def lin2 {M K N : Nat} (x1 x2 : Mat M K) (w1 w2 : Mat K N) (b : Row N) : Mat M N :=
  fun i => max ((dot x1 w1 (i 0) (i 1) + dot x2 w2 (i 0) (i 1)) + b (ix1 (i 1))) 0

/-- The hidden layer with its five inputs against their own weight matrices, summed left to right. -/
def hid5 {M : Nat} (a1 : Mat M 1024) (a2 : Mat M 300) (a3 : Mat M 16) (a4 : Mat M 300) (a5 : Mat M 1024)
    (w1 : Mat 1024 1024) (w2 : Mat 300 1024) (w3 : Mat 16 1024) (w4 : Mat 300 1024) (w5 : Mat 1024 1024) (b : Row 1024) : Mat M 1024 :=
  fun i => max (((((dot a1 w1 (i 0) (i 1) + dot a2 w2 (i 0) (i 1)) + dot a3 w3 (i 0) (i 1)) + dot a4 w4 (i 0) (i 1))
    + dot a5 w5 (i 0) (i 1)) + b (ix1 (i 1))) 0

/-- The output layer over 128 padded columns. -/
def out128 {M : Nat} (h : Mat M 1024) (w : Mat 1024 128) (b : Row 128) : Mat M 128 :=
  fun i => dot h w (i 0) (i 1) + b (ix1 (i 1))

/-- A product against a weight array that is a band of rows of a taller matrix is the specification's band. -/
theorem dot_eq_band {M K K' N : Nat} (x : Mat M K) (w : Mat K N) (W : Mat K' N) (off : Nat) (h : off + K ≤ K')
    (hw : ∀ (k : Fin K) (q : Fin N), w (ix2 k q) = W (ix2 (⟨off + k.val, by omega⟩ : Fin K') q)) (p : Fin M) (q : Fin N) :
    dot x w p q = band x W off h p q := by
  unfold dot band
  exact Finset.sum_congr rfl fun k _ => by rw [hw k q]

end Cert.KForm

end
-- ==== Proof.Pay.lean ====
/-
  The arithmetic of the two grid bodies, read at one entry over the extended reals.

  A change of float format is the identity, a matrix product into a zero accumulator is the plain sum over the
  contracted axis, a bias row broadcast down the rows is the bias at the column, and the rectifier is the maximum
  with zero.  So the node-update body's two stored blocks are two-input dense layers of the loaded blocks, and the
  edge body's stored block is the output layer of the five-input hidden layer of the loaded blocks.
-/
import proofs.«160440_j44023414784183_2_alg».proof.Proof.Gen.KernelIdeal.Skeleton
import proofs.«160440_j44023414784183_2_alg».proof.Proof.LibDotPlain
import proofs.«160440_j44023414784183_2_alg».proof.Proof.KForm
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.KForm

/-- The zero word is the real zero. -/
theorem zero_f32 : Scalar.ofBits (F := Ideal) .f32 0x00000000#32 = (0 : EReal) := Ideal.ofBits_zero_f32

theorem mm_400_1024 (x : FVec Ideal S400x1024 .bf16) (w : FVec Ideal S1024x1024 .bf16) (p : Fin 400) (q : Fin 1024) :
    matmul dot_S400x1024_S1024x1024_S400x1024_1_0_0_1_n_n none x w (constant S400x1024 .f32 0x00000000#32) (ix2 p q) = dot x w p q :=
  (Ideal.matmul_constant_zero_apply _ none _ _ _).trans (DotPlain.sum_eq _ rfl rfl rfl rfl rfl rfl rfl rfl x w p q)

theorem mm_400_300 (x : FVec Ideal S400x300 .bf16) (w : FVec Ideal S300x300 .bf16) (p : Fin 400) (q : Fin 300) :
    matmul dot_S400x300_S300x300_S400x300_1_0_0_1_n_n none x w (constant S400x300 .f32 0x00000000#32) (ix2 p q) = dot x w p q :=
  (Ideal.matmul_constant_zero_apply _ none _ _ _).trans (DotPlain.sum_eq _ rfl rfl rfl rfl rfl rfl rfl rfl x w p q)

/-- The visual block the node-update body stores. -/
theorem pay_vis (x0 x5 : Vec Ideal S400x1024 .f32) (w1 w2 : Vec Ideal S1024x1024 .bf16) (b : Vec Ideal S1024 .f32)
    (p : Fin 400) (q : Fin 1024) :
    k0_pay2 x0 w1 x5 w2 b (ix2 p q) = lin2 (M := 400) x0 x5 w1 w2 b (ix2 p q) := by
  unfold k0_pay2 lin2
  simp only [truncf_apply, maximumf_apply, addf_apply, broadcast_apply, shapeCast_self, mm_400_1024, zero_f32]
  rw [broadcastTo_1b_ab_apply, shapeCast_a_1a_apply]
  rfl

/-- The language block the node-update body stores. -/
theorem pay_lang (x2 x3 : Vec Ideal S400x300 .f32) (w1 w2 : Vec Ideal S300x300 .bf16) (b : Vec Ideal S300 .f32)
    (p : Fin 400) (q : Fin 300) :
    k0_pay1 (k0_pay3 x2 w1 x3 w2) (k0_pay4 b) (ix2 p q) = lin2 (M := 400) x2 x3 w1 w2 b (ix2 p q) := by
  unfold k0_pay1 k0_pay3 k0_pay4 lin2
  simp only [truncf_apply, maximumf_apply, addf_apply, broadcast_apply, shapeCast_self, mm_400_300, zero_f32]
  rw [broadcastTo_1b_ab_apply, shapeCast_a_1a_apply]
  rfl

theorem mm_800_1024_1024 (x : FVec Ideal S800x1024 .bf16) (w : FVec Ideal S1024x1024 .bf16) (p : Fin 800) (q : Fin 1024) :
    matmul dot_S800x1024_S1024x1024_S800x1024_1_0_0_1_n_n none x w (constant S800x1024 .f32 0x00000000#32) (ix2 p q) = dot x w p q :=
  (Ideal.matmul_constant_zero_apply _ none _ _ _).trans (DotPlain.sum_eq _ rfl rfl rfl rfl rfl rfl rfl rfl x w p q)

theorem mm_800_300_1024 (x : FVec Ideal S800x300 .bf16) (w : FVec Ideal S300x1024 .bf16) (p : Fin 800) (q : Fin 1024) :
    matmul dot_S800x300_S300x1024_S800x1024_1_0_0_1_n_n none x w (constant S800x1024 .f32 0x00000000#32) (ix2 p q) = dot x w p q :=
  (Ideal.matmul_constant_zero_apply _ none _ _ _).trans (DotPlain.sum_eq _ rfl rfl rfl rfl rfl rfl rfl rfl x w p q)

theorem mm_800_16_1024 (x : FVec Ideal S800x16 .bf16) (w : FVec Ideal S16x1024 .bf16) (p : Fin 800) (q : Fin 1024) :
    matmul dot_S800x16_S16x1024_S800x1024_1_0_0_1_n_n none x w (constant S800x1024 .f32 0x00000000#32) (ix2 p q) = dot x w p q :=
  (Ideal.matmul_constant_zero_apply _ none _ _ _).trans (DotPlain.sum_eq _ rfl rfl rfl rfl rfl rfl rfl rfl x w p q)

theorem mm_800_1024_128 (x : FVec Ideal S800x1024 .bf16) (w : FVec Ideal S1024x128 .bf16) (p : Fin 800) (q : Fin 128) :
    matmul dot_S800x1024_S1024x128_S800x128_1_0_0_1_n_n none x w (constant S800x128 .f32 0x00000000#32) (ix2 p q) = dot x w p q :=
  (Ideal.matmul_constant_zero_apply _ none _ _ _).trans (DotPlain.sum_eq _ rfl rfl rfl rfl rfl rfl rfl rfl x w p q)

/-- The edge body's hidden layer before its rectifier: the five products summed left to right, plus the bias. -/
theorem pay_hid (a1 : Vec Ideal S800x1024 .bf16) (w1 : Vec Ideal S1024x1024 .bf16) (a2 : Vec Ideal S800x300 .bf16)
    (w2 : Vec Ideal S300x1024 .bf16) (a3 : Vec Ideal S800x16 .f32) (w3 : Vec Ideal S16x1024 .bf16) (a4 : Vec Ideal S800x300 .bf16)
    (w4 : Vec Ideal S300x1024 .bf16) (a5 : Vec Ideal S800x1024 .bf16) (w5 : Vec Ideal S1024x1024 .bf16) (b : Vec Ideal S1024 .f32)
    (p : Fin 800) (k : Fin 1024) :
    k1_pay2 a1 w1 a2 w2 a3 w3 a4 w4 a5 w5 b (ix2 p k)
      = ((((dot a1 w1 p k + dot a2 w2 p k) + dot a3 w3 p k) + dot a4 w4 p k) + dot a5 w5 p k) + b (ix1 k) := by
  unfold k1_pay2
  simp only [truncf_apply, addf_apply, shapeCast_self, mm_800_1024_1024, mm_800_300_1024, mm_800_16_1024]
  rw [broadcastTo_1b_ab_apply, shapeCast_a_1a_apply]
  rfl

/-- The block the edge body stores: the output layer over 128 columns of the rectified hidden layer. -/
theorem pay_edge (a1 : Vec Ideal S800x1024 .bf16) (w1 : Vec Ideal S1024x1024 .bf16) (a2 : Vec Ideal S800x300 .bf16)
    (w2 : Vec Ideal S300x1024 .bf16) (a3 : Vec Ideal S800x16 .f32) (w3 : Vec Ideal S16x1024 .bf16) (a4 : Vec Ideal S800x300 .bf16)
    (w4 : Vec Ideal S300x1024 .bf16) (a5 : Vec Ideal S800x1024 .bf16) (w5 : Vec Ideal S1024x1024 .bf16) (b : Vec Ideal S1024 .f32)
    (w : Vec Ideal S1024x128 .bf16) (b2 : Vec Ideal S128 .f32) (p : Fin 800) (q : Fin 128) :
    k1_pay1 (k1_pay2 a1 w1 a2 w2 a3 w3 a4 w4 a5 w5 b) w b2 (ix2 p q)
      = out128 (hid5 (M := 800) a1 a2 a3 a4 a5 w1 w2 w3 w4 w5 b) w b2 (ix2 p q) := by
  unfold k1_pay1 out128
  simp only [addf_apply, shapeCast_self, mm_800_1024_128]
  rw [broadcastTo_1b_ab_apply, shapeCast_a_1a_apply]
  refine congrArg (· + b2 (ix1 q)) ?_
  unfold dot
  refine Finset.sum_congr rfl fun k _ => congrArg (· * w (ix2 k q)) ?_
  show max (k1_pay2 a1 w1 a2 w2 a3 w3 a4 w4 a5 w5 b (ix2 p k)) (Scalar.ofBits (F := Ideal) .f32 0x00000000#32) = _
  rw [pay_hid, zero_f32]
  rfl

end Cert.KernelIdeal.Pay

end
-- ==== Proof.Region0.lean ====
/-
  The first launch: what its two output arrays hold when it returns.

  The grid has fifty points; point t reads rows 400 t … 400 t + 399 of the four node arrays and the whole of the four
  weight arrays and two bias rows, and writes rows 400 t … 400 t + 399 of the two outputs.  Each written block is the
  two-input dense layer of the read blocks, so it is that block of the same layer of the whole arrays; the fifty
  blocks tile the outputs, so each output array ends as the layer of the arrays the launch found.
-/
import proofs.«160440_j44023414784183_2_alg».proof.Proof.Gen.KernelIdeal.Frame
import proofs.«160440_j44023414784183_2_alg».proof.Proof.Pay

set_option maxRecDepth 16384

noncomputable section

namespace Cert.KernelIdeal.Reg0

open Cert.KernelIdeal Cert.KernelIdeal.Gen Cert.KernelIdeal.Pay Cert.KForm Cert.EdgeSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the fifty grid points: the four row-blocked inputs and the two outputs sit at block
    row `t`, block column 0; the six resident operands at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The visual array the first launch leaves: the two-input layer of the arrays the launch finds. -/
def visArr (c : Dev nD) : S20000x1024.Idx → EReal :=
  lin2 (M := 20000) (V c main_arg0) (V c main_arg1) (V c main_v1) (V c main_v3) (V c main_arg6)

/-- The language array the first launch leaves. -/
def langArr (c : Dev nD) : S20000x300.Idx → EReal :=
  lin2 (M := 20000) (V c main_arg2) (V c main_arg3) (V c main_v5) (V c main_v7) (V c main_arg8)

theorem lin2_at {M K N : Nat} (x1 x2 : Mat M K) (w1 w2 : Mat K N) (b : Row N) (p : Fin M) (q : Fin N) :
    lin2 x1 x2 w1 w2 b (ix2 p q) = max ((dot x1 w1 p q + dot x2 w2 p q) + b (ix1 q)) 0 := rfl

theorem row_lt (t : Fin cfg0.N) (p : Fin 400) : 400 * t.val + p.val < 20000 := by
  have h1 : t.val < 50 := t.isLt
  have h2 := p.isLt
  omega

/-! ## Each window's block at a point, read at an entry -/

theorem blk0 (c : Dev nD) (t : Fin cfg0.N) (p : Fin 400) (k : Fin 1024) :
    iblk0 V c 0 t (ix2 p k) = V c main_arg0 (ix2 (⟨400 * t.val + p.val, row_lt t p⟩ : Fin 20000) k) := by
  obtain ⟨e0, e1, e2, e3, e4, e5, e6, e7, e8, e9, e10, e11, e12, e13, e14, e15, e16, e17, e18, e19, e20, e21⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 400 + 1 * p.val = 400 * t.val + p.val; omega
  | ⟨1, _⟩ => show win0_0.index t (1 : Fin 2) * 1024 + 1 * k.val = k.val; omega

theorem blk1 (c : Dev nD) (t : Fin cfg0.N) (p : Fin 400) (k : Fin 1024) :
    iblk0 V c 1 t (ix2 p k) = V c main_arg1 (ix2 (⟨400 * t.val + p.val, row_lt t p⟩ : Fin 20000) k) := by
  obtain ⟨e0, e1, e2, e3, e4, e5, e6, e7, e8, e9, e10, e11, e12, e13, e14, e15, e16, e17, e18, e19, e20, e21⟩ := idx_facts t
  show V c main_arg1 (((cfg0.win 1).blk t).view.emb (ix2 p k)) = _
  refine congrArg (V c main_arg1) (funext fun a => Fin.ext ?_)
  match a with
  | ⟨0, _⟩ => show win0_1.index t (0 : Fin 2) * 400 + 1 * p.val = 400 * t.val + p.val; omega
  | ⟨1, _⟩ => show win0_1.index t (1 : Fin 2) * 1024 + 1 * k.val = k.val; omega

theorem blk2 (c : Dev nD) (t : Fin cfg0.N) (p : Fin 400) (k : Fin 300) :
    iblk0 V c 2 t (ix2 p k) = V c main_arg2 (ix2 (⟨400 * t.val + p.val, row_lt t p⟩ : Fin 20000) k) := by
  obtain ⟨e0, e1, e2, e3, e4, e5, e6, e7, e8, e9, e10, e11, e12, e13, e14, e15, e16, e17, e18, e19, e20, e21⟩ := idx_facts t
  show V c main_arg2 (((cfg0.win 2).blk t).view.emb (ix2 p k)) = _
  refine congrArg (V c main_arg2) (funext fun a => Fin.ext ?_)
  match a with
  | ⟨0, _⟩ => show win0_2.index t (0 : Fin 2) * 400 + 1 * p.val = 400 * t.val + p.val; omega
  | ⟨1, _⟩ => show win0_2.index t (1 : Fin 2) * 300 + 1 * k.val = k.val; omega

theorem blk3 (c : Dev nD) (t : Fin cfg0.N) (p : Fin 400) (k : Fin 300) :
    iblk0 V c 3 t (ix2 p k) = V c main_arg3 (ix2 (⟨400 * t.val + p.val, row_lt t p⟩ : Fin 20000) k) := by
  obtain ⟨e0, e1, e2, e3, e4, e5, e6, e7, e8, e9, e10, e11, e12, e13, e14, e15, e16, e17, e18, e19, e20, e21⟩ := idx_facts t
  show V c main_arg3 (((cfg0.win 3).blk t).view.emb (ix2 p k)) = _
  refine congrArg (V c main_arg3) (funext fun a => Fin.ext ?_)
  match a with
  | ⟨0, _⟩ => show win0_3.index t (0 : Fin 2) * 400 + 1 * p.val = 400 * t.val + p.val; omega
  | ⟨1, _⟩ => show win0_3.index t (1 : Fin 2) * 300 + 1 * k.val = k.val; omega

theorem blk4 (c : Dev nD) (t : Fin cfg0.N) (p : Fin 1024) (k : Fin 1024) :
    iblk0 V c 4 t (ix2 p k) = V c main_v1 (ix2 p k) := by
  obtain ⟨e0, e1, e2, e3, e4, e5, e6, e7, e8, e9, e10, e11, e12, e13, e14, e15, e16, e17, e18, e19, e20, e21⟩ := idx_facts t
  show V c main_v1 (((cfg0.win 4).blk t).view.emb (ix2 p k)) = _
  refine congrArg (V c main_v1) (funext fun a => Fin.ext ?_)
  match a with
  | ⟨0, _⟩ => show win0_4.index t (0 : Fin 2) * 1024 + 1 * p.val = p.val; omega
  | ⟨1, _⟩ => show win0_4.index t (1 : Fin 2) * 1024 + 1 * k.val = k.val; omega

theorem blk5 (c : Dev nD) (t : Fin cfg0.N) (p : Fin 1024) (k : Fin 1024) :
    iblk0 V c 5 t (ix2 p k) = V c main_v3 (ix2 p k) := by
  obtain ⟨e0, e1, e2, e3, e4, e5, e6, e7, e8, e9, e10, e11, e12, e13, e14, e15, e16, e17, e18, e19, e20, e21⟩ := idx_facts t
  show V c main_v3 (((cfg0.win 5).blk t).view.emb (ix2 p k)) = _
  refine congrArg (V c main_v3) (funext fun a => Fin.ext ?_)
  match a with
  | ⟨0, _⟩ => show win0_5.index t (0 : Fin 2) * 1024 + 1 * p.val = p.val; omega
  | ⟨1, _⟩ => show win0_5.index t (1 : Fin 2) * 1024 + 1 * k.val = k.val; omega

theorem blk6 (c : Dev nD) (t : Fin cfg0.N) (q : Fin 1024) :
    iblk0 V c 6 t (ix1 q) = V c main_arg6 (ix1 q) := by
  obtain ⟨e0, e1, e2, e3, e4, e5, e6, e7, e8, e9, e10, e11, e12, e13, e14, e15, e16, e17, e18, e19, e20, e21⟩ := idx_facts t
  show V c main_arg6 (((cfg0.win 6).blk t).view.emb (ix1 q)) = _
  refine congrArg (V c main_arg6) (funext fun a => Fin.ext ?_)
  match a with
  | ⟨0, _⟩ => show win0_6.index t (0 : Fin 1) * 1024 + 1 * q.val = q.val; omega

theorem blk7 (c : Dev nD) (t : Fin cfg0.N) (p : Fin 300) (k : Fin 300) :
    iblk0 V c 7 t (ix2 p k) = V c main_v5 (ix2 p k) := by
  obtain ⟨e0, e1, e2, e3, e4, e5, e6, e7, e8, e9, e10, e11, e12, e13, e14, e15, e16, e17, e18, e19, e20, e21⟩ := idx_facts t
  show V c main_v5 (((cfg0.win 7).blk t).view.emb (ix2 p k)) = _
  refine congrArg (V c main_v5) (funext fun a => Fin.ext ?_)
  match a with
  | ⟨0, _⟩ => show win0_7.index t (0 : Fin 2) * 300 + 1 * p.val = p.val; omega
  | ⟨1, _⟩ => show win0_7.index t (1 : Fin 2) * 300 + 1 * k.val = k.val; omega

theorem blk8 (c : Dev nD) (t : Fin cfg0.N) (p : Fin 300) (k : Fin 300) :
    iblk0 V c 8 t (ix2 p k) = V c main_v7 (ix2 p k) := by
  obtain ⟨e0, e1, e2, e3, e4, e5, e6, e7, e8, e9, e10, e11, e12, e13, e14, e15, e16, e17, e18, e19, e20, e21⟩ := idx_facts t
  show V c main_v7 (((cfg0.win 8).blk t).view.emb (ix2 p k)) = _
  refine congrArg (V c main_v7) (funext fun a => Fin.ext ?_)
  match a with
  | ⟨0, _⟩ => show win0_8.index t (0 : Fin 2) * 300 + 1 * p.val = p.val; omega
  | ⟨1, _⟩ => show win0_8.index t (1 : Fin 2) * 300 + 1 * k.val = k.val; omega

theorem blk9 (c : Dev nD) (t : Fin cfg0.N) (q : Fin 300) :
    iblk0 V c 9 t (ix1 q) = V c main_arg8 (ix1 q) := by
  obtain ⟨e0, e1, e2, e3, e4, e5, e6, e7, e8, e9, e10, e11, e12, e13, e14, e15, e16, e17, e18, e19, e20, e21⟩ := idx_facts t
  show V c main_arg8 (((cfg0.win 9).blk t).view.emb (ix1 q)) = _
  refine congrArg (V c main_arg8) (funext fun a => Fin.ext ?_)
  match a with
  | ⟨0, _⟩ => show win0_9.index t (0 : Fin 1) * 300 + 1 * q.val = q.val; omega

/-! ## The visual output -/

theorem emb10 (t : Fin cfg0.N) (p : Fin 400) (q : Fin 1024) :
    ((cfg0.win 10).blk t).view.emb (ix2 p q) = ix2 (⟨400 * t.val + p.val, row_lt t p⟩ : Fin 20000) q := by
  obtain ⟨e0, e1, e2, e3, e4, e5, e6, e7, e8, e9, e10, e11, e12, e13, e14, e15, e16, e17, e18, e19, e20, e21⟩ := idx_facts t
  funext a; apply Fin.ext
  match a with
  | ⟨0, _⟩ => show win0_10.index t (0 : Fin 2) * 400 + 1 * p.val = 400 * t.val + p.val; omega
  | ⟨1, _⟩ => show win0_10.index t (1 : Fin 2) * 1024 + 1 * q.val = q.val; omega

/-- What grid point `t` writes back is block `t` of the layer of the arrays the launch finds. -/
theorem flushed10 (c : Dev nD) (t : Fin cfg0.N) :
    (dat0 V c).flushed 10 t = ((cfg0.win 10).blk t).view.read (Elt Ideal) (visArr V c) := by
  show (cfg0.win 10).cut (grid0.coords t) ((dat0 V c).after 10 t) = _
  rw [after0_10]
  unfold out0_10
  rw [View.canon_unit_zero hz2]
  simp only [View.ld_unit_zero (S := S400x1024) hz2, View.ld_unit_zero (S := S1024x1024) hz2, View.ld_unit_zero (S := S1024) hz1]
  funext j
  revert j
  show ∀ j : S400x1024.Idx, k0_pay2 (iblk0 V c 0 t) (iblk0 V c 4 t) (iblk0 V c 1 t) (iblk0 V c 5 t) (iblk0 V c 6 t) j = visArr V c (((cfg0.win 10).blk t).view.emb j)
  intro j
  obtain ⟨p, q, rfl⟩ : ∃ (p : Fin 400) (q : Fin 1024), j = ix2 p q := ⟨j 0, j 1, eq_ix2 j⟩
  rw [emb10 t p q]
  refine (pay_vis _ _ _ _ _ p q).trans ?_
  unfold visArr
  rw [lin2_at, lin2_at]
  unfold dot
  simp only [blk0, blk1, blk4, blk5, blk6]

/-- An index of the array lies in point `t`'s block iff each coordinate lies in the block's range on its axis. -/
theorem mem_blk10 (t : Fin cfg0.N) (i : S20000x1024.Idx) :
    i ∈ ((cfg0.win 10).blk t).view.set ↔ ∀ a : Fin 2, win0_10.index t a * S400x1024.size a ≤ (i a).val ∧ (i a).val < win0_10.index t a * S400x1024.size a + S400x1024.size a := by
  show i ∈ ((View.whole main_v8_0).slice (win0_10.rect t)).set ↔ _
  rw [View.set_slice_whole, Rect.mem_set_unit]
  exact Iff.rfl

/-- Row `r` of the array lies in the block of point `r / 400`: the fifty blocks tile the array. -/
theorem cover10 (i : S20000x1024.Idx) : ∃ t : Fin cfg0.N, (cfg0.win 10).flush t = true ∧ i ∈ ((cfg0.win 10).blk t).view.set := by
  have hi0 : (i 0).val < 20000 := (i 0).isLt
  have hi1 : (i 1).val < 1024 := (i 1).isLt
  have ht : (i 0).val / 400 < cfg0.N := by show _ < 50; omega
  obtain ⟨e0, e1, e2, e3, e4, e5, e6, e7, e8, e9, e10, e11, e12, e13, e14, e15, e16, e17, e18, e19, e20, e21⟩ := idx_facts ⟨(i 0).val / 400, ht⟩
  refine ⟨⟨(i 0).val / 400, ht⟩, flush0_10 _, ?_⟩
  rw [mem_blk10]
  intro a
  match a with
  | ⟨0, _⟩ =>
    show win0_10.index ⟨(i 0).val / 400, ht⟩ (0 : Fin 2) * 400 ≤ (i 0).val ∧ (i 0).val < win0_10.index ⟨(i 0).val / 400, ht⟩ (0 : Fin 2) * 400 + 400
    have hv : (⟨(i 0).val / 400, ht⟩ : Fin cfg0.N).val = (i 0).val / 400 := rfl
    omega
  | ⟨1, _⟩ =>
    show win0_10.index ⟨(i 0).val / 400, ht⟩ (1 : Fin 2) * 1024 ≤ (i 1).val ∧ (i 1).val < win0_10.index ⟨(i 0).val / 400, ht⟩ (1 : Fin 2) * 1024 + 1024
    omega

/-- The array after the launch: the layer of the arrays the launch finds. -/
theorem final10 (c : Dev nD) : (dat0 V c).arrAt 10 cfg0.N = visArr V c :=
  (dat0 V c).arrAt_eq_of_cover 10 (visArr V c) (fun t _ => flushed10 V c t) cover10

/-! ## The language output -/

theorem emb11 (t : Fin cfg0.N) (p : Fin 400) (q : Fin 300) :
    ((cfg0.win 11).blk t).view.emb (ix2 p q) = ix2 (⟨400 * t.val + p.val, row_lt t p⟩ : Fin 20000) q := by
  obtain ⟨e0, e1, e2, e3, e4, e5, e6, e7, e8, e9, e10, e11, e12, e13, e14, e15, e16, e17, e18, e19, e20, e21⟩ := idx_facts t
  funext a; apply Fin.ext
  match a with
  | ⟨0, _⟩ => show win0_11.index t (0 : Fin 2) * 400 + 1 * p.val = 400 * t.val + p.val; omega
  | ⟨1, _⟩ => show win0_11.index t (1 : Fin 2) * 300 + 1 * q.val = q.val; omega

/-- What grid point `t` writes back is block `t` of the layer of the arrays the launch finds. -/
theorem flushed11 (c : Dev nD) (t : Fin cfg0.N) :
    (dat0 V c).flushed 11 t = ((cfg0.win 11).blk t).view.read (Elt Ideal) (langArr V c) := by
  show (cfg0.win 11).cut (grid0.coords t) ((dat0 V c).after 11 t) = _
  rw [after0_11]
  unfold out0_11
  rw [View.canon_unit_zero hz2]
  simp only [View.ld_unit_zero (S := S400x300) hz2, View.ld_unit_zero (S := S300x300) hz2, View.ld_unit_zero (S := S300) hz1]
  funext j
  revert j
  show ∀ j : S400x300.Idx, k0_pay1 (k0_pay3 (iblk0 V c 2 t) (iblk0 V c 7 t) (iblk0 V c 3 t) (iblk0 V c 8 t)) (k0_pay4 (iblk0 V c 9 t)) j = langArr V c (((cfg0.win 11).blk t).view.emb j)
  intro j
  obtain ⟨p, q, rfl⟩ : ∃ (p : Fin 400) (q : Fin 300), j = ix2 p q := ⟨j 0, j 1, eq_ix2 j⟩
  rw [emb11 t p q]
  refine (pay_lang _ _ _ _ _ p q).trans ?_
  unfold langArr
  rw [lin2_at, lin2_at]
  unfold dot
  simp only [blk2, blk3, blk7, blk8, blk9]

/-- An index of the array lies in point `t`'s block iff each coordinate lies in the block's range on its axis. -/
theorem mem_blk11 (t : Fin cfg0.N) (i : S20000x300.Idx) :
    i ∈ ((cfg0.win 11).blk t).view.set ↔ ∀ a : Fin 2, win0_11.index t a * S400x300.size a ≤ (i a).val ∧ (i a).val < win0_11.index t a * S400x300.size a + S400x300.size a := by
  show i ∈ ((View.whole main_v8_1).slice (win0_11.rect t)).set ↔ _
  rw [View.set_slice_whole, Rect.mem_set_unit]
  exact Iff.rfl

/-- Row `r` of the array lies in the block of point `r / 400`: the fifty blocks tile the array. -/
theorem cover11 (i : S20000x300.Idx) : ∃ t : Fin cfg0.N, (cfg0.win 11).flush t = true ∧ i ∈ ((cfg0.win 11).blk t).view.set := by
  have hi0 : (i 0).val < 20000 := (i 0).isLt
  have hi1 : (i 1).val < 300 := (i 1).isLt
  have ht : (i 0).val / 400 < cfg0.N := by show _ < 50; omega
  obtain ⟨e0, e1, e2, e3, e4, e5, e6, e7, e8, e9, e10, e11, e12, e13, e14, e15, e16, e17, e18, e19, e20, e21⟩ := idx_facts ⟨(i 0).val / 400, ht⟩
  refine ⟨⟨(i 0).val / 400, ht⟩, flush0_11 _, ?_⟩
  rw [mem_blk11]
  intro a
  match a with
  | ⟨0, _⟩ =>
    show win0_11.index ⟨(i 0).val / 400, ht⟩ (0 : Fin 2) * 400 ≤ (i 0).val ∧ (i 0).val < win0_11.index ⟨(i 0).val / 400, ht⟩ (0 : Fin 2) * 400 + 400
    have hv : (⟨(i 0).val / 400, ht⟩ : Fin cfg0.N).val = (i 0).val / 400 := rfl
    omega
  | ⟨1, _⟩ =>
    show win0_11.index ⟨(i 0).val / 400, ht⟩ (1 : Fin 2) * 300 ≤ (i 1).val ∧ (i 1).val < win0_11.index ⟨(i 0).val / 400, ht⟩ (1 : Fin 2) * 300 + 300
    omega

/-- The array after the launch: the layer of the arrays the launch finds. -/
theorem final11 (c : Dev nD) : (dat0 V c).arrAt 11 cfg0.N = langArr V c :=
  (dat0 V c).arrAt_eq_of_cover 11 (langArr V c) (fun t _ => flushed11 V c t) cover11

end Cert.KernelIdeal.Reg0

end
-- ==== Proof.Region1.lean ====
/-
  The second launch: what its output array holds when it returns.

  The grid has 125 points; point t reads rows 800 t … 800 t + 799 of the five edge arrays and the whole of the six
  weight arrays and two bias rows, and writes rows 800 t … 800 t + 799 of the output.  The written block is the output
  layer of the five-input hidden layer of the read blocks, so it is that block of the same two layers of the whole
  arrays; the 125 blocks tile the output, so the output array ends as the two layers of the arrays the launch found.
-/
import proofs.«160440_j44023414784183_2_alg».proof.Proof.Gen.KernelIdeal.Frame
import proofs.«160440_j44023414784183_2_alg».proof.Proof.Pay

set_option maxRecDepth 16384

noncomputable section

namespace Cert.KernelIdeal.Reg1

open Cert.KernelIdeal Cert.KernelIdeal.Gen Cert.KernelIdeal.Pay Cert.KForm Cert.EdgeSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 125 grid points: the five row-blocked inputs and the output sit at block row
    `t`, block column 0; the eight resident operands at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 1) = 0
    ∧ win1_11.index t (0 : Fin 2) = 0
    ∧ win1_11.index t (1 : Fin 2) = 0
    ∧ win1_12.index t (0 : Fin 1) = 0
    ∧ win1_13.index t (0 : Fin 2) = t.val
    ∧ win1_13.index t (1 : Fin 2) = 0 :=
  (by decide +kernel : ∀ t : Fin grid1.N, _)

/-- The array the second launch leaves: the output layer of the five-input hidden layer of the arrays the launch finds. -/
def edgeArr (c : Dev nD) : S100000x128.Idx → EReal :=
  out128 (M := 100000) (hid5 (M := 100000) (V c main_v15) (V c main_v22) (V c main_arg4) (V c main_v36) (V c main_v29)
    (V c main_v38) (V c main_v40) (V c main_v42) (V c main_v44) (V c main_v46) (V c main_arg10)) (V c main_v48) (V c main_v49)

theorem out128_at {M : Nat} (h : Mat M 1024) (w : Mat 1024 128) (b : Row 128) (p : Fin M) (q : Fin 128) :
    out128 h w b (ix2 p q) = dot h w p q + b (ix1 q) := rfl

theorem hid5_at {M : Nat} (a1 : Mat M 1024) (a2 : Mat M 300) (a3 : Mat M 16) (a4 : Mat M 300) (a5 : Mat M 1024)
    (w1 : Mat 1024 1024) (w2 : Mat 300 1024) (w3 : Mat 16 1024) (w4 : Mat 300 1024) (w5 : Mat 1024 1024) (b : Row 1024)
    (p : Fin M) (k : Fin 1024) :
    hid5 a1 a2 a3 a4 a5 w1 w2 w3 w4 w5 b (ix2 p k)
      = max (((((dot a1 w1 p k + dot a2 w2 p k) + dot a3 w3 p k) + dot a4 w4 p k) + dot a5 w5 p k) + b (ix1 k)) 0 := rfl

theorem row_lt (t : Fin cfg1.N) (p : Fin 800) : 800 * t.val + p.val < 100000 := by
  have h1 : t.val < 125 := t.isLt
  have h2 := p.isLt
  omega

/-! ## Each window's block at a point, read at an entry -/

theorem blk0 (c : Dev nD) (t : Fin cfg1.N) (p : Fin 800) (k : Fin 1024) :
    iblk1 V c 0 t (ix2 p k) = V c main_v15 (ix2 (⟨800 * t.val + p.val, row_lt t p⟩ : Fin 100000) k) := by
  obtain ⟨e0, e1, e2, e3, e4, e5, e6, e7, e8, e9, e10, e11, e12, e13, e14, e15, e16, e17, e18, e19, e20, e21, e22, e23, e24, e25⟩ := idx_facts t
  show V c main_v15 (((cfg1.win 0).blk t).view.emb (ix2 p k)) = _
  refine congrArg (V c main_v15) (funext fun a => Fin.ext ?_)
  match a with
  | ⟨0, _⟩ => show win1_0.index t (0 : Fin 2) * 800 + 1 * p.val = 800 * t.val + p.val; omega
  | ⟨1, _⟩ => show win1_0.index t (1 : Fin 2) * 1024 + 1 * k.val = k.val; omega

theorem blk1 (c : Dev nD) (t : Fin cfg1.N) (p : Fin 800) (k : Fin 300) :
    iblk1 V c 1 t (ix2 p k) = V c main_v22 (ix2 (⟨800 * t.val + p.val, row_lt t p⟩ : Fin 100000) k) := by
  obtain ⟨e0, e1, e2, e3, e4, e5, e6, e7, e8, e9, e10, e11, e12, e13, e14, e15, e16, e17, e18, e19, e20, e21, e22, e23, e24, e25⟩ := idx_facts t
  show V c main_v22 (((cfg1.win 1).blk t).view.emb (ix2 p k)) = _
  refine congrArg (V c main_v22) (funext fun a => Fin.ext ?_)
  match a with
  | ⟨0, _⟩ => show win1_1.index t (0 : Fin 2) * 800 + 1 * p.val = 800 * t.val + p.val; omega
  | ⟨1, _⟩ => show win1_1.index t (1 : Fin 2) * 300 + 1 * k.val = k.val; omega

theorem blk2 (c : Dev nD) (t : Fin cfg1.N) (p : Fin 800) (k : Fin 16) :
    iblk1 V c 2 t (ix2 p k) = V c main_arg4 (ix2 (⟨800 * t.val + p.val, row_lt t p⟩ : Fin 100000) k) := by
  obtain ⟨e0, e1, e2, e3, e4, e5, e6, e7, e8, e9, e10, e11, e12, e13, e14, e15, e16, e17, e18, e19, e20, e21, e22, e23, e24, e25⟩ := idx_facts t
  show V c main_arg4 (((cfg1.win 2).blk t).view.emb (ix2 p k)) = _
  refine congrArg (V c main_arg4) (funext fun a => Fin.ext ?_)
  match a with
  | ⟨0, _⟩ => show win1_2.index t (0 : Fin 2) * 800 + 1 * p.val = 800 * t.val + p.val; omega
  | ⟨1, _⟩ => show win1_2.index t (1 : Fin 2) * 16 + 1 * k.val = k.val; omega

theorem blk3 (c : Dev nD) (t : Fin cfg1.N) (p : Fin 800) (k : Fin 300) :
    iblk1 V c 3 t (ix2 p k) = V c main_v36 (ix2 (⟨800 * t.val + p.val, row_lt t p⟩ : Fin 100000) k) := by
  obtain ⟨e0, e1, e2, e3, e4, e5, e6, e7, e8, e9, e10, e11, e12, e13, e14, e15, e16, e17, e18, e19, e20, e21, e22, e23, e24, e25⟩ := idx_facts t
  show V c main_v36 (((cfg1.win 3).blk t).view.emb (ix2 p k)) = _
  refine congrArg (V c main_v36) (funext fun a => Fin.ext ?_)
  match a with
  | ⟨0, _⟩ => show win1_3.index t (0 : Fin 2) * 800 + 1 * p.val = 800 * t.val + p.val; omega
  | ⟨1, _⟩ => show win1_3.index t (1 : Fin 2) * 300 + 1 * k.val = k.val; omega

theorem blk4 (c : Dev nD) (t : Fin cfg1.N) (p : Fin 800) (k : Fin 1024) :
    iblk1 V c 4 t (ix2 p k) = V c main_v29 (ix2 (⟨800 * t.val + p.val, row_lt t p⟩ : Fin 100000) k) := by
  obtain ⟨e0, e1, e2, e3, e4, e5, e6, e7, e8, e9, e10, e11, e12, e13, e14, e15, e16, e17, e18, e19, e20, e21, e22, e23, e24, e25⟩ := idx_facts t
  show V c main_v29 (((cfg1.win 4).blk t).view.emb (ix2 p k)) = _
  refine congrArg (V c main_v29) (funext fun a => Fin.ext ?_)
  match a with
  | ⟨0, _⟩ => show win1_4.index t (0 : Fin 2) * 800 + 1 * p.val = 800 * t.val + p.val; omega
  | ⟨1, _⟩ => show win1_4.index t (1 : Fin 2) * 1024 + 1 * k.val = k.val; omega

theorem blk5 (c : Dev nD) (t : Fin cfg1.N) (p : Fin 1024) (k : Fin 1024) :
    iblk1 V c 5 t (ix2 p k) = V c main_v38 (ix2 p k) := by
  obtain ⟨e0, e1, e2, e3, e4, e5, e6, e7, e8, e9, e10, e11, e12, e13, e14, e15, e16, e17, e18, e19, e20, e21, e22, e23, e24, e25⟩ := idx_facts t
  show V c main_v38 (((cfg1.win 5).blk t).view.emb (ix2 p k)) = _
  refine congrArg (V c main_v38) (funext fun a => Fin.ext ?_)
  match a with
  | ⟨0, _⟩ => show win1_5.index t (0 : Fin 2) * 1024 + 1 * p.val = p.val; omega
  | ⟨1, _⟩ => show win1_5.index t (1 : Fin 2) * 1024 + 1 * k.val = k.val; omega

theorem blk6 (c : Dev nD) (t : Fin cfg1.N) (p : Fin 300) (k : Fin 1024) :
    iblk1 V c 6 t (ix2 p k) = V c main_v40 (ix2 p k) := by
  obtain ⟨e0, e1, e2, e3, e4, e5, e6, e7, e8, e9, e10, e11, e12, e13, e14, e15, e16, e17, e18, e19, e20, e21, e22, e23, e24, e25⟩ := idx_facts t
  show V c main_v40 (((cfg1.win 6).blk t).view.emb (ix2 p k)) = _
  refine congrArg (V c main_v40) (funext fun a => Fin.ext ?_)
  match a with
  | ⟨0, _⟩ => show win1_6.index t (0 : Fin 2) * 300 + 1 * p.val = p.val; omega
  | ⟨1, _⟩ => show win1_6.index t (1 : Fin 2) * 1024 + 1 * k.val = k.val; omega

theorem blk7 (c : Dev nD) (t : Fin cfg1.N) (p : Fin 16) (k : Fin 1024) :
    iblk1 V c 7 t (ix2 p k) = V c main_v42 (ix2 p k) := by
  obtain ⟨e0, e1, e2, e3, e4, e5, e6, e7, e8, e9, e10, e11, e12, e13, e14, e15, e16, e17, e18, e19, e20, e21, e22, e23, e24, e25⟩ := idx_facts t
  show V c main_v42 (((cfg1.win 7).blk t).view.emb (ix2 p k)) = _
  refine congrArg (V c main_v42) (funext fun a => Fin.ext ?_)
  match a with
  | ⟨0, _⟩ => show win1_7.index t (0 : Fin 2) * 16 + 1 * p.val = p.val; omega
  | ⟨1, _⟩ => show win1_7.index t (1 : Fin 2) * 1024 + 1 * k.val = k.val; omega

theorem blk8 (c : Dev nD) (t : Fin cfg1.N) (p : Fin 300) (k : Fin 1024) :
    iblk1 V c 8 t (ix2 p k) = V c main_v44 (ix2 p k) := by
  obtain ⟨e0, e1, e2, e3, e4, e5, e6, e7, e8, e9, e10, e11, e12, e13, e14, e15, e16, e17, e18, e19, e20, e21, e22, e23, e24, e25⟩ := idx_facts t
  show V c main_v44 (((cfg1.win 8).blk t).view.emb (ix2 p k)) = _
  refine congrArg (V c main_v44) (funext fun a => Fin.ext ?_)
  match a with
  | ⟨0, _⟩ => show win1_8.index t (0 : Fin 2) * 300 + 1 * p.val = p.val; omega
  | ⟨1, _⟩ => show win1_8.index t (1 : Fin 2) * 1024 + 1 * k.val = k.val; omega

theorem blk9 (c : Dev nD) (t : Fin cfg1.N) (p : Fin 1024) (k : Fin 1024) :
    iblk1 V c 9 t (ix2 p k) = V c main_v46 (ix2 p k) := by
  obtain ⟨e0, e1, e2, e3, e4, e5, e6, e7, e8, e9, e10, e11, e12, e13, e14, e15, e16, e17, e18, e19, e20, e21, e22, e23, e24, e25⟩ := idx_facts t
  show V c main_v46 (((cfg1.win 9).blk t).view.emb (ix2 p k)) = _
  refine congrArg (V c main_v46) (funext fun a => Fin.ext ?_)
  match a with
  | ⟨0, _⟩ => show win1_9.index t (0 : Fin 2) * 1024 + 1 * p.val = p.val; omega
  | ⟨1, _⟩ => show win1_9.index t (1 : Fin 2) * 1024 + 1 * k.val = k.val; omega

theorem blk10 (c : Dev nD) (t : Fin cfg1.N) (q : Fin 1024) :
    iblk1 V c 10 t (ix1 q) = V c main_arg10 (ix1 q) := by
  obtain ⟨e0, e1, e2, e3, e4, e5, e6, e7, e8, e9, e10, e11, e12, e13, e14, e15, e16, e17, e18, e19, e20, e21, e22, e23, e24, e25⟩ := idx_facts t
  show V c main_arg10 (((cfg1.win 10).blk t).view.emb (ix1 q)) = _
  refine congrArg (V c main_arg10) (funext fun a => Fin.ext ?_)
  match a with
  | ⟨0, _⟩ => show win1_10.index t (0 : Fin 1) * 1024 + 1 * q.val = q.val; omega

theorem blk11 (c : Dev nD) (t : Fin cfg1.N) (p : Fin 1024) (k : Fin 128) :
    iblk1 V c 11 t (ix2 p k) = V c main_v48 (ix2 p k) := by
  obtain ⟨e0, e1, e2, e3, e4, e5, e6, e7, e8, e9, e10, e11, e12, e13, e14, e15, e16, e17, e18, e19, e20, e21, e22, e23, e24, e25⟩ := idx_facts t
  show V c main_v48 (((cfg1.win 11).blk t).view.emb (ix2 p k)) = _
  refine congrArg (V c main_v48) (funext fun a => Fin.ext ?_)
  match a with
  | ⟨0, _⟩ => show win1_11.index t (0 : Fin 2) * 1024 + 1 * p.val = p.val; omega
  | ⟨1, _⟩ => show win1_11.index t (1 : Fin 2) * 128 + 1 * k.val = k.val; omega

theorem blk12 (c : Dev nD) (t : Fin cfg1.N) (q : Fin 128) :
    iblk1 V c 12 t (ix1 q) = V c main_v49 (ix1 q) := by
  obtain ⟨e0, e1, e2, e3, e4, e5, e6, e7, e8, e9, e10, e11, e12, e13, e14, e15, e16, e17, e18, e19, e20, e21, e22, e23, e24, e25⟩ := idx_facts t
  show V c main_v49 (((cfg1.win 12).blk t).view.emb (ix1 q)) = _
  refine congrArg (V c main_v49) (funext fun a => Fin.ext ?_)
  match a with
  | ⟨0, _⟩ => show win1_12.index t (0 : Fin 1) * 128 + 1 * q.val = q.val; omega

/-! ## The output -/

theorem emb13 (t : Fin cfg1.N) (p : Fin 800) (q : Fin 128) :
    ((cfg1.win 13).blk t).view.emb (ix2 p q) = ix2 (⟨800 * t.val + p.val, row_lt t p⟩ : Fin 100000) q := by
  obtain ⟨e0, e1, e2, e3, e4, e5, e6, e7, e8, e9, e10, e11, e12, e13, e14, e15, e16, e17, e18, e19, e20, e21, e22, e23, e24, e25⟩ := idx_facts t
  funext a; apply Fin.ext
  match a with
  | ⟨0, _⟩ => show win1_13.index t (0 : Fin 2) * 800 + 1 * p.val = 800 * t.val + p.val; omega
  | ⟨1, _⟩ => show win1_13.index t (1 : Fin 2) * 128 + 1 * q.val = q.val; omega

/-- What grid point `t` writes back is block `t` of the two layers of the arrays the launch finds. -/
theorem flushed13 (c : Dev nD) (t : Fin cfg1.N) :
    (dat1 V c).flushed 13 t = ((cfg1.win 13).blk t).view.read (Elt Ideal) (edgeArr V c) := by
  show (cfg1.win 13).cut (grid1.coords t) ((dat1 V c).after 13 t) = _
  rw [after1_13]
  unfold out1_13
  rw [View.canon_unit_zero hz2]
  simp only [View.ld_unit_zero (S := S800x1024) hz2, View.ld_unit_zero (S := S1024x1024) hz2, View.ld_unit_zero (S := S800x300) hz2,
    View.ld_unit_zero (S := S300x1024) hz2, View.ld_unit_zero (S := S800x16) hz2, View.ld_unit_zero (S := S16x1024) hz2,
    View.ld_unit_zero (S := S1024) hz1, View.ld_unit_zero (S := S1024x128) hz2, View.ld_unit_zero (S := S128) hz1]
  funext j
  revert j
  show ∀ j : S800x128.Idx, k1_pay1 (k1_pay2 (iblk1 V c 0 t) (iblk1 V c 5 t) (iblk1 V c 1 t) (iblk1 V c 6 t) (iblk1 V c 2 t) (iblk1 V c 7 t) (iblk1 V c 3 t) (iblk1 V c 8 t) (iblk1 V c 4 t) (iblk1 V c 9 t) (iblk1 V c 10 t)) (iblk1 V c 11 t) (iblk1 V c 12 t) j = edgeArr V c (((cfg1.win 13).blk t).view.emb j)
  intro j
  obtain ⟨p, q, rfl⟩ : ∃ (p : Fin 800) (q : Fin 128), j = ix2 p q := ⟨j 0, j 1, eq_ix2 j⟩
  rw [emb13 t p q]
  refine (pay_edge _ _ _ _ _ _ _ _ _ _ _ _ _ p q).trans ?_
  unfold edgeArr
  rw [out128_at, out128_at]
  unfold dot
  simp only [hid5_at]
  unfold dot
  simp only [blk0, blk1, blk2, blk3, blk4, blk5, blk6, blk7, blk8, blk9, blk10, blk11, blk12]

/-- An index of the array lies in point `t`'s block iff each coordinate lies in the block's range on its axis. -/
theorem mem_blk13 (t : Fin cfg1.N) (i : S100000x128.Idx) :
    i ∈ ((cfg1.win 13).blk t).view.set ↔ ∀ a : Fin 2, win1_13.index t a * S800x128.size a ≤ (i a).val ∧ (i a).val < win1_13.index t a * S800x128.size a + S800x128.size a := by
  show i ∈ ((View.whole main_v50).slice (win1_13.rect t)).set ↔ _
  rw [View.set_slice_whole, Rect.mem_set_unit]
  exact Iff.rfl

/-- Row `r` of the array lies in the block of point `r / 800`: the 125 blocks tile the array. -/
theorem cover13 (i : S100000x128.Idx) : ∃ t : Fin cfg1.N, (cfg1.win 13).flush t = true ∧ i ∈ ((cfg1.win 13).blk t).view.set := by
  have hi0 : (i 0).val < 100000 := (i 0).isLt
  have hi1 : (i 1).val < 128 := (i 1).isLt
  have ht : (i 0).val / 800 < cfg1.N := by show _ < 125; omega
  obtain ⟨e0, e1, e2, e3, e4, e5, e6, e7, e8, e9, e10, e11, e12, e13, e14, e15, e16, e17, e18, e19, e20, e21, e22, e23, e24, e25⟩ := idx_facts ⟨(i 0).val / 800, ht⟩
  refine ⟨⟨(i 0).val / 800, ht⟩, flush1_13 _, ?_⟩
  rw [mem_blk13]
  intro a
  match a with
  | ⟨0, _⟩ =>
    show win1_13.index ⟨(i 0).val / 800, ht⟩ (0 : Fin 2) * 800 ≤ (i 0).val ∧ (i 0).val < win1_13.index ⟨(i 0).val / 800, ht⟩ (0 : Fin 2) * 800 + 800
    have hv : (⟨(i 0).val / 800, ht⟩ : Fin cfg1.N).val = (i 0).val / 800 := rfl
    omega
  | ⟨1, _⟩ =>
    show win1_13.index ⟨(i 0).val / 800, ht⟩ (1 : Fin 2) * 128 ≤ (i 1).val ∧ (i 1).val < win1_13.index ⟨(i 0).val / 800, ht⟩ (1 : Fin 2) * 128 + 128
    omega

/-- The array after the launch: the two layers of the arrays the launch finds. -/
theorem final13 (c : Dev nD) : (dat1 V c).arrAt 13 cfg1.N = edgeArr V c :=
  (dat1 V c).arrAt_eq_of_cover 13 (edgeArr V c) (fun t _ => flushed13 V c t) cover13

end Cert.KernelIdeal.Reg1

end
-- ==== Proof.Host.lean ====
/-
  The host lines around the two launches, read at the buffers the launches and the result depend on.

  Before the first launch the host cuts each of the two node weight matrices into its upper and lower half.  Between
  the launches it brings the two index arrays into range, gathers the rows of the first launch's two outputs at them,
  cuts the classifier's first weight matrix into its five bands of rows, and pads the second weight matrix and bias
  from 117 to 128 columns.  After the second launch it cuts the 128-column result back to 117 columns.  No line
  writes an argument array, and a launch leaves every array it only reads as it was.
-/
import proofs.«160440_j44023414784183_2_alg».proof.Proof.Gen.KernelIdeal.Frame
import proofs.«160440_j44023414784183_2_alg».proof.Proof.Region0
import proofs.«160440_j44023414784183_2_alg».proof.Proof.Region1
import Idealize.ShloMosaic.Lib.StableHlo.Run
import Idealize.ShloMosaic.PureOps.Ideal

set_option maxRecDepth 16384

noncomputable section

namespace Cert.KernelIdeal.HostVal

open Cert.KernelIdeal Cert.KernelIdeal.Gen Cert.KForm Cert.EdgeSpec
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- An index array brought into range (a negative entry is counted from the end) and shaped as one column. -/
def normIdx (x : IVec S100000 32) : IVec S100000x1 32 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 20000#32))) x)

/-! ## At the first launch's entry -/
theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg8 (c : Dev nD) : V1 m ρ c main_arg8 = m ((c : Thread nD τ).loc main_arg8) := by
  show StableHlo.after hostOps0 (W0 m ρ c) (Proc.devRef .tc main_arg8) = _
  after_results
theorem V1_v1 (c : Dev nD) : @Eq (FVec Ideal S1024x1024 .bf16) (V1 m ρ c main_v1)
    (truncf (F := Ideal) .bf16 (extractStridedSlice S1024x1024 ![0, 0] (m ((c : Thread nD τ).loc main_arg5)) slices_S2048x1024_S1024x1024_0_0) bitsLt_bf16_f32) := by
  show StableHlo.after hostOps0 (W0 m ρ c) (Proc.devRef .tc main_v1) = _
  after_results
theorem V1_v3 (c : Dev nD) : @Eq (FVec Ideal S1024x1024 .bf16) (V1 m ρ c main_v3)
    (truncf (F := Ideal) .bf16 (extractStridedSlice S1024x1024 ![1024, 0] (m ((c : Thread nD τ).loc main_arg5)) slices_S2048x1024_S1024x1024_1024_0) bitsLt_bf16_f32) := by
  show StableHlo.after hostOps0 (W0 m ρ c) (Proc.devRef .tc main_v3) = _
  after_results
theorem V1_v5 (c : Dev nD) : @Eq (FVec Ideal S300x300 .bf16) (V1 m ρ c main_v5)
    (truncf (F := Ideal) .bf16 (extractStridedSlice S300x300 ![0, 0] (m ((c : Thread nD τ).loc main_arg7)) slices_S600x300_S300x300_0_0) bitsLt_bf16_f32) := by
  show StableHlo.after hostOps0 (W0 m ρ c) (Proc.devRef .tc main_v5) = _
  after_results
theorem V1_v7 (c : Dev nD) : @Eq (FVec Ideal S300x300 .bf16) (V1 m ρ c main_v7)
    (truncf (F := Ideal) .bf16 (extractStridedSlice S300x300 ![300, 0] (m ((c : Thread nD τ).loc main_arg7)) slices_S600x300_S300x300_300_0) bitsLt_bf16_f32) := by
  show StableHlo.after hostOps0 (W0 m ρ c) (Proc.devRef .tc main_v7) = _
  after_results

/-! ## At the first launch's exit -/

theorem W2_v8_0 (c : Dev nD) : W2 m ρ c (Proc.devRef .tc main_v8_0) = Reg0.visArr (V1 m ρ) c :=
  (W2_arr m ρ c 10).trans (Reg0.final10 (V1 m ρ) c)
theorem W2_v8_1 (c : Dev nD) : W2 m ρ c (Proc.devRef .tc main_v8_1) = Reg0.langArr (V1 m ρ) c :=
  (W2_arr m ρ c 11).trans (Reg0.final11 (V1 m ρ) c)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)
theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)

/-! ## At the second launch's entry -/

theorem V6_v15 (c : Dev nD) : @Eq (FVec Ideal S100000x1024 .bf16) (V6 m ρ c main_v15)
    (Host.gather gather_S20000x1024_S100000x1_S100000x1024_1_0_n_n_0_1_11024 (Reg0.visArr (V1 m ρ) c) (normIdx (m ((c : Thread nD τ).loc main_arg14)))) := by
  show StableHlo.after hostOps1_3 (StableHlo.after hostOps1_2 (StableHlo.after hostOps1_1 (StableHlo.after hostOps1 (W2 m ρ c)))) (Proc.devRef .tc main_v15) = _
  after_results
  rw [W2_v8_0, W2_arg14]
  rfl
set_option maxHeartbeats 4000000 in
theorem V6_v22 (c : Dev nD) : @Eq (FVec Ideal S100000x300 .bf16) (V6 m ρ c main_v22)
    (Host.gather gather_S20000x300_S100000x1_S100000x300_1_0_n_n_0_1_1300 (Reg0.langArr (V1 m ρ) c) (normIdx (m ((c : Thread nD τ).loc main_arg14)))) := by
  show StableHlo.after hostOps1_3 (StableHlo.after hostOps1_2 (StableHlo.after hostOps1_1 (StableHlo.after hostOps1 (W2 m ρ c)))) (Proc.devRef .tc main_v22) = _
  after_results
  rw [W2_v8_1, W2_arg14]
  rfl
set_option maxHeartbeats 4000000 in
theorem V6_v29 (c : Dev nD) : @Eq (FVec Ideal S100000x1024 .bf16) (V6 m ρ c main_v29)
    (Host.gather gather_S20000x1024_S100000x1_S100000x1024_1_0_n_n_0_1_11024 (Reg0.visArr (V1 m ρ) c) (normIdx (m ((c : Thread nD τ).loc main_arg13)))) := by
  show StableHlo.after hostOps1_3 (StableHlo.after hostOps1_2 (StableHlo.after hostOps1_1 (StableHlo.after hostOps1 (W2 m ρ c)))) (Proc.devRef .tc main_v29) = _
  after_results
  rw [W2_v8_0, W2_arg13]
  rfl
set_option maxHeartbeats 4000000 in
theorem V6_v36 (c : Dev nD) : @Eq (FVec Ideal S100000x300 .bf16) (V6 m ρ c main_v36)
    (Host.gather gather_S20000x300_S100000x1_S100000x300_1_0_n_n_0_1_1300 (Reg0.langArr (V1 m ρ) c) (normIdx (m ((c : Thread nD τ).loc main_arg13)))) := by
  show StableHlo.after hostOps1_3 (StableHlo.after hostOps1_2 (StableHlo.after hostOps1_1 (StableHlo.after hostOps1 (W2 m ρ c)))) (Proc.devRef .tc main_v36) = _
  after_results
  rw [W2_v8_1, W2_arg13]
  rfl
theorem V6_v38 (c : Dev nD) : @Eq (FVec Ideal S1024x1024 .bf16) (V6 m ρ c main_v38)
    (truncf (F := Ideal) .bf16 (extractStridedSlice S1024x1024 ![0, 0] (m ((c : Thread nD τ).loc main_arg9)) slices_S2664x1024_S1024x1024_0_0) bitsLt_bf16_f32) := by
  show StableHlo.after hostOps1_3 (StableHlo.after hostOps1_2 (StableHlo.after hostOps1_1 (StableHlo.after hostOps1 (W2 m ρ c)))) (Proc.devRef .tc main_v38) = _
  after_results
  rw [W2_arg9]
theorem V6_v40 (c : Dev nD) : @Eq (FVec Ideal S300x1024 .bf16) (V6 m ρ c main_v40)
    (truncf (F := Ideal) .bf16 (extractStridedSlice S300x1024 ![1024, 0] (m ((c : Thread nD τ).loc main_arg9)) slices_S2664x1024_S300x1024_1024_0) bitsLt_bf16_f32) := by
  show StableHlo.after hostOps1_3 (StableHlo.after hostOps1_2 (StableHlo.after hostOps1_1 (StableHlo.after hostOps1 (W2 m ρ c)))) (Proc.devRef .tc main_v40) = _
  after_results
  rw [W2_arg9]
theorem V6_v42 (c : Dev nD) : @Eq (FVec Ideal S16x1024 .bf16) (V6 m ρ c main_v42)
    (truncf (F := Ideal) .bf16 (extractStridedSlice S16x1024 ![1324, 0] (m ((c : Thread nD τ).loc main_arg9)) slices_S2664x1024_S16x1024_1324_0) bitsLt_bf16_f32) := by
  show StableHlo.after hostOps1_3 (StableHlo.after hostOps1_2 (StableHlo.after hostOps1_1 (StableHlo.after hostOps1 (W2 m ρ c)))) (Proc.devRef .tc main_v42) = _
  after_results
  rw [W2_arg9]
theorem V6_v44 (c : Dev nD) : @Eq (FVec Ideal S300x1024 .bf16) (V6 m ρ c main_v44)
    (truncf (F := Ideal) .bf16 (extractStridedSlice S300x1024 ![1340, 0] (m ((c : Thread nD τ).loc main_arg9)) slices_S2664x1024_S300x1024_1340_0) bitsLt_bf16_f32) := by
  show StableHlo.after hostOps1_3 (StableHlo.after hostOps1_2 (StableHlo.after hostOps1_1 (StableHlo.after hostOps1 (W2 m ρ c)))) (Proc.devRef .tc main_v44) = _
  after_results
  rw [W2_arg9]
theorem V6_v46 (c : Dev nD) : @Eq (FVec Ideal S1024x1024 .bf16) (V6 m ρ c main_v46)
    (truncf (F := Ideal) .bf16 (extractStridedSlice S1024x1024 ![1640, 0] (m ((c : Thread nD τ).loc main_arg9)) slices_S2664x1024_S1024x1024_1640_0) bitsLt_bf16_f32) := by
  show StableHlo.after hostOps1_3 (StableHlo.after hostOps1_2 (StableHlo.after hostOps1_1 (StableHlo.after hostOps1 (W2 m ρ c)))) (Proc.devRef .tc main_v46) = _
  after_results
  rw [W2_arg9]
theorem V6_arg4 (c : Dev nD) : V6 m ρ c main_arg4 = m ((c : Thread nD τ).loc main_arg4) := by
  show StableHlo.after hostOps1_3 (StableHlo.after hostOps1_2 (StableHlo.after hostOps1_1 (StableHlo.after hostOps1 (W2 m ρ c)))) (Proc.devRef .tc main_arg4) = _
  after_results
  rw [W2_arg4]
theorem V6_arg10 (c : Dev nD) : V6 m ρ c main_arg10 = m ((c : Thread nD τ).loc main_arg10) := by
  show StableHlo.after hostOps1_3 (StableHlo.after hostOps1_2 (StableHlo.after hostOps1_1 (StableHlo.after hostOps1 (W2 m ρ c)))) (Proc.devRef .tc main_arg10) = _
  after_results
  rw [W2_arg10]
/-- The padding value the host hands to both pads: the integer zero converted to a float. -/
def padVal : FVec Ideal S_ .f32 := sitofp (F := Ideal) .f32 (constantI S_ 32 0#32)
theorem V6_v48 (c : Dev nD) : @Eq (FVec Ideal S1024x128 .bf16) (V6 m ρ c main_v48)
    (truncf (F := Ideal) .bf16 (pad S1024x128 ![0, 0] ![0, 11] ![0, 0] (m ((c : Thread nD τ).loc main_arg11)) padVal pads_S1024x117_S1024x128_000_0110 h_S_) bitsLt_bf16_f32) := by
  show StableHlo.after hostOps1_3 (StableHlo.after hostOps1_2 (StableHlo.after hostOps1_1 (StableHlo.after hostOps1 (W2 m ρ c)))) (Proc.devRef .tc main_v48) = _
  after_results
  rw [W2_arg11]
  rfl
theorem V6_v49 (c : Dev nD) : @Eq (FVec Ideal S128 .f32) (V6 m ρ c main_v49)
    (pad S128 ![0] ![11] ![0] (m ((c : Thread nD τ).loc main_arg12)) padVal pads_S117_S128_0110 h_S_) := by
  show StableHlo.after hostOps1_3 (StableHlo.after hostOps1_2 (StableHlo.after hostOps1_1 (StableHlo.after hostOps1 (W2 m ρ c)))) (Proc.devRef .tc main_v49) = _
  after_results
  rw [W2_arg12]
  rfl

/-! ## At the return -/

theorem W8_v51 (c : Dev nD) : @Eq (FVec Ideal S100000x117 .f32) (W8 m ρ c (Proc.devRef .tc main_v51))
    (extractStridedSlice S100000x117 ![0, 0] (Reg1.edgeArr (V6 m ρ) c) slices_S100000x128_S100000x117_0_0) := by
  show StableHlo.after hostOps2 (W7 m ρ c) (Proc.devRef .tc main_v51) = _
  after_results
  rw [(W7_arr m ρ c 13).trans (Reg1.final13 (V6 m ρ) c)]

end Cert.KernelIdeal.HostVal

end
-- ==== Proof.Bridge.lean ====
/-
  The kernel-shaped layers are the specification's layers.

  Before each launch the program cuts each weight matrix into the bands of rows its products use, and pads the output
  layer's weight matrix and bias from 117 to 128 columns; after the second launch it keeps the first 117 columns.  A
  cut-out band read at an entry is the uncut matrix at the entry's row moved down by the band's first row, and a
  change of float format is the identity over the extended reals, so a product against a cut-out band is the
  specification's band of the uncut matrix.  A padded array read at a column below 117 is the array itself, and the
  kept columns are all below 117, so the padding value is never read.
-/
import proofs.«160440_j44023414784183_2_alg».proof.Proof.Gen.KernelIdeal
import proofs.«160440_j44023414784183_2_alg».proof.Proof.KForm
import Idealize.ShloMosaic.Lib.Pipeline.Value
import Idealize.ShloMosaic.Lib.KernelVsHost
import Idealize.ShloMosaic.Lib.ValueIdx

noncomputable section

namespace Cert.KernelIdeal.Bridge

open Cert.KernelIdeal Cert.KForm Cert.EdgeSpec
open Idealize.ShloMosaic Idealize.ShloMosaic.ValueIdx
open Cert.KernelIdeal.Facts₀

/-- A band of `K` rows cut out of a taller matrix from row `off` on, its format narrowed, read at an entry: the
    uncut matrix at row `off + k`. -/
theorem cut_at {K K' N : Nat} (off : Nat) (W : Mat K' N)
    (hs : (⟨2, ![K', N]⟩ : Shape).Slices ![off, 0] (⟨2, ![K, N]⟩ : Shape)) (hlt : FTy.bits .bf16 < FTy.bits .f32)
    (hoff : off + K ≤ K') (k : Fin K) (q : Fin N) :
    (truncf (F := Ideal) .bf16 (extractStridedSlice (⟨2, ![K, N]⟩ : Shape) ![off, 0] W hs) hlt : Mat K N) (ix2 k q)
      = W (ix2 (⟨off + k.val, by omega⟩ : Fin K') q) := by
  rw [truncf_apply]
  exact extractStridedSlice_apply _ W hs (ix2 k q) _
    (fun a => match a with | ⟨0, _⟩ => rfl | ⟨1, _⟩ => (Nat.zero_add _).symm)

/-- (1) The visual node update: the two-input layer over the two cut-out halves of the weight matrix. -/
theorem vis_bridge (x1 x2 : Mat 20000 1024) (W : Mat 2048 1024) (b : Row 1024) :
    lin2 (M := 20000) x1 x2 (truncf (F := Ideal) .bf16 (extractStridedSlice S1024x1024 ![0, 0] W slices_S2048x1024_S1024x1024_0_0) bitsLt_bf16_f32)
      (truncf (F := Ideal) .bf16 (extractStridedSlice S1024x1024 ![1024, 0] W slices_S2048x1024_S1024x1024_1024_0) bitsLt_bf16_f32) b
      = nodeVis x1 x2 W b := by
  funext i
  obtain ⟨p, q, rfl⟩ : ∃ (p : Fin 20000) (q : Fin 1024), i = ix2 p q := ⟨i 0, i 1, eq_ix2 i⟩
  exact congrArg₂ max (congrArg₂ (· + ·) (congrArg₂ (· + ·)
    (dot_eq_band x1 _ W 0 (by omega) (fun k q => cut_at 0 W _ _ (by omega) k q) p q)
    (dot_eq_band x2 _ W 1024 (by omega) (fun k q => cut_at 1024 W _ _ (by omega) k q) p q)) rfl) rfl

/-- (2) The language node update likewise. -/
theorem lang_bridge (x1 x2 : Mat 20000 300) (W : Mat 600 300) (b : Row 300) :
    lin2 (M := 20000) x1 x2 (truncf (F := Ideal) .bf16 (extractStridedSlice S300x300 ![0, 0] W slices_S600x300_S300x300_0_0) bitsLt_bf16_f32)
      (truncf (F := Ideal) .bf16 (extractStridedSlice S300x300 ![300, 0] W slices_S600x300_S300x300_300_0) bitsLt_bf16_f32) b
      = nodeLang x1 x2 W b := by
  funext i
  obtain ⟨p, q, rfl⟩ : ∃ (p : Fin 20000) (q : Fin 300), i = ix2 p q := ⟨i 0, i 1, eq_ix2 i⟩
  exact congrArg₂ max (congrArg₂ (· + ·) (congrArg₂ (· + ·)
    (dot_eq_band x1 _ W 0 (by omega) (fun k q => cut_at 0 W _ _ (by omega) k q) p q)
    (dot_eq_band x2 _ W 300 (by omega) (fun k q => cut_at 300 W _ _ (by omega) k q) p q)) rfl) rfl

/-- (3) The hidden layer: the five-input layer over the five cut-out bands of the weight matrix. -/
theorem hid_bridge (fd : Mat 100000 1024) (ld : Mat 100000 300) (sf : Mat 100000 16) (ls : Mat 100000 300) (fs : Mat 100000 1024)
    (W : Mat 2664 1024) (b : Row 1024) :
    hid5 (M := 100000) fd ld sf ls fs
      (truncf (F := Ideal) .bf16 (extractStridedSlice S1024x1024 ![0, 0] W slices_S2664x1024_S1024x1024_0_0) bitsLt_bf16_f32)
      (truncf (F := Ideal) .bf16 (extractStridedSlice S300x1024 ![1024, 0] W slices_S2664x1024_S300x1024_1024_0) bitsLt_bf16_f32)
      (truncf (F := Ideal) .bf16 (extractStridedSlice S16x1024 ![1324, 0] W slices_S2664x1024_S16x1024_1324_0) bitsLt_bf16_f32)
      (truncf (F := Ideal) .bf16 (extractStridedSlice S300x1024 ![1340, 0] W slices_S2664x1024_S300x1024_1340_0) bitsLt_bf16_f32)
      (truncf (F := Ideal) .bf16 (extractStridedSlice S1024x1024 ![1640, 0] W slices_S2664x1024_S1024x1024_1640_0) bitsLt_bf16_f32) b
      = hidden fd ld sf ls fs W b := by
  funext i
  obtain ⟨p, q, rfl⟩ : ∃ (p : Fin 100000) (q : Fin 1024), i = ix2 p q := ⟨i 0, i 1, eq_ix2 i⟩
  exact congrArg₂ max (congrArg₂ (· + ·) (congrArg₂ (· + ·) (congrArg₂ (· + ·) (congrArg₂ (· + ·) (congrArg₂ (· + ·)
    (dot_eq_band fd _ W 0 (by omega) (fun k q => cut_at 0 W _ _ (by omega) k q) p q)
    (dot_eq_band ld _ W 1024 (by omega) (fun k q => cut_at 1024 W _ _ (by omega) k q) p q))
    (dot_eq_band sf _ W 1324 (by omega) (fun k q => cut_at 1324 W _ _ (by omega) k q) p q))
    (dot_eq_band ls _ W 1340 (by omega) (fun k q => cut_at 1340 W _ _ (by omega) k q) p q))
    (dot_eq_band fs _ W 1640 (by omega) (fun k q => cut_at 1640 W _ _ (by omega) k q) p q)) rfl) rfl

/-- (4) The output layer: over the padded weight matrix and bias, the first 117 columns kept. -/
theorem out_bridge (h : Mat 100000 1024) (W2 : Mat 1024 117) (b2 : Row 117) (z z' : S_.Idx → EReal) :
    extractStridedSlice S100000x117 ![0, 0]
        (out128 (M := 100000) h
          (truncf (F := Ideal) .bf16 (pad S1024x128 ![0, 0] ![0, 11] ![0, 0] W2 z pads_S1024x117_S1024x128_000_0110 h_S_) bitsLt_bf16_f32)
          (pad S128 ![0] ![11] ![0] b2 z' pads_S117_S128_0110 h_S_))
        slices_S100000x128_S100000x117_0_0
      = logits h W2 b2 := by
  funext i
  obtain ⟨p, q, rfl⟩ : ∃ (p : Fin 100000) (q : Fin 117), i = ix2 p q := ⟨i 0, i 1, eq_ix2 i⟩
  have hq : q.val < 128 := by have := q.isLt; omega
  refine (extractStridedSlice_apply _ _ slices_S100000x128_S100000x117_0_0 (ix2 p q) (ix2 p (⟨q.val, hq⟩ : Fin 128))
    (fun a => match a with | ⟨0, _⟩ => (Nat.zero_add _).symm | ⟨1, _⟩ => (Nat.zero_add _).symm)).trans ?_
  refine congrArg₂ (· + ·) ?_ (pad_apply_of_inside _ _ _ b2 z' pads_S117_S128_0110 h_S_ (ix1 (⟨q.val, hq⟩ : Fin 128)) (ix1 q)
    (fun a => match a with | ⟨0, _⟩ => by show q.val = 0 + q.val * (0 + 1); omega))
  unfold dot band
  refine Finset.sum_congr rfl fun k _ => congrArg (h (ix2 p k) * ·) ?_
  rw [truncf_apply]
  exact pad_apply_of_inside _ _ _ W2 z pads_S1024x117_S1024x128_000_0110 h_S_ (ix2 k (⟨q.val, hq⟩ : Fin 128)) _
    (fun a => match a with
      | ⟨0, _⟩ => by show k.val = 0 + (0 + k.val) * (0 + 1); omega
      | ⟨1, _⟩ => by show q.val = 0 + q.val * (0 + 1); omega)

end Cert.KernelIdeal.Bridge

end
-- ==== Proof.KernelValue.lean ====
/-
  The idealized kernel's result as the specification's function of the fifteen arguments.

  The result is the first 117 columns of the second launch's output array; that array is the 128-column output layer
  of the five-input hidden layer of what the launch found: the four row gathers of the first launch's two output
  arrays, the edge features, and the cut-out and padded weights.  The first launch's outputs are the two node layers
  over the cut-out halves of their weight matrices.  A layer over cut-out bands of rows of a matrix is the
  specification's layer over the matrix, and the padded columns are cut away again.
-/
import proofs.«160440_j44023414784183_2_alg».proof.Proof.Host
import proofs.«160440_j44023414784183_2_alg».proof.Proof.Bridge
import proofs.«160440_j44023414784183_2_alg».proof.Proof.Spec

set_option maxRecDepth 16384

noncomputable section

namespace Cert.KernelIdeal.HostVal

open Cert.KernelIdeal Cert.KernelIdeal.Gen Cert.KForm Cert.EdgeSpec Cert.KernelIdeal.Bridge
open Idealize.ShloMosaic Idealize.ShloMosaic.TcCoe Idealize.SL.Sem Idealize.ShloMosaic.StableHlo

variable (m : (ℓ : Loc nD τ sig) → Buf (Elt Ideal) ℓ) (ρ : Dev nD → PrngReg)

/-- The first launch's visual output is the specification's visual node update of the arguments. -/
theorem vis_eq (c : Dev nD) : Reg0.visArr (V1 m ρ) c
    = nodeVis (m ((c : Thread nD τ).loc main_arg0)) (m ((c : Thread nD τ).loc main_arg1)) (m ((c : Thread nD τ).loc main_arg5)) (m ((c : Thread nD τ).loc main_arg6)) := by
  unfold Reg0.visArr
  rw [V1_arg0, V1_arg1, V1_arg6, V1_v1, V1_v3]
  exact vis_bridge _ _ _ _

/-- The first launch's language output is the specification's language node update of the arguments. -/
theorem lang_eq (c : Dev nD) : Reg0.langArr (V1 m ρ) c
    = nodeLang (m ((c : Thread nD τ).loc main_arg2)) (m ((c : Thread nD τ).loc main_arg3)) (m ((c : Thread nD τ).loc main_arg7)) (m ((c : Thread nD τ).loc main_arg8)) := by
  unfold Reg0.langArr
  rw [V1_arg2, V1_arg3, V1_arg8, V1_v5, V1_v7]
  exact lang_bridge _ _ _ _

/-- THE RESULT: the buffer the program returns holds the specification's read-out of the arguments. -/
theorem result_eq (c : Dev nD) : @Eq (Mat 100000 117) (W8 m ρ c (Proc.devRef .tc main_v51))
    (pred (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) gather_S20000x1024_S100000x1_S100000x1024_1_0_n_n_0_1_11024
      gather_S20000x300_S100000x1_S100000x300_1_0_n_n_0_1_1300 (normIdx (m ((c : Thread nD τ).loc main_arg14)))
      (normIdx (m ((c : Thread nD τ).loc main_arg13)))) := by
  refine (W8_v51 m ρ c).trans ?_
  unfold Reg1.edgeArr
  rw [V6_v15, V6_v22, V6_arg4, V6_v36, V6_v29, V6_v38, V6_v40, V6_v42, V6_v44, V6_v46, V6_arg10, V6_v48, V6_v49]
  rw [hid_bridge, vis_eq, lang_eq]
  exact out_bridge _ _ _ _ _

end Cert.KernelIdeal.HostVal

end
-- ==== Proof.RefValue.lean ====
/-
  The reference program's value is the specification's.

  The reference joins arrays side by side and multiplies the joined array with one weight matrix.  At the extended
  reals a matrix product's entry is the sum over the contraction position of the operands' products, a joined array
  read at a column is the piece whose span holds the column, and a sum over the joined columns is the sum over the
  first piece's columns plus the sum over the rest's.  So each product against a joined array is the sum of the pieces'
  products against their own bands of rows of the weight matrix, which is how the specification writes it.  The bias
  is a row laid under every row, the rectifier a maximum with zero.
-/
import proofs.«160440_j44023414784183_2_alg».proof.Proof.Gen.ReferenceIdeal.Read
import proofs.«160440_j44023414784183_2_alg».proof.Proof.Spec
import proofs.«160440_j44023414784183_2_alg».proof.Proof.LibDotPlain

noncomputable section

namespace Cert.RefValue

open Cert.ReferenceIdeal Cert.ReferenceIdeal.Gen Cert.ReferenceIdeal.Read Cert.EdgeSpec
open Idealize.ShloMosaic Idealize.ShloMosaic.ValueIdx

/-! ## Sums over joined ranges -/

/-- A sum over `m + n` positions is the sum over the first `m` plus the sum over the last `n`. -/
theorem sum_split (m n mn : Nat) (h : m + n = mn) (f : Fin mn → EReal) :
    ∑ k : Fin mn, f k = ∑ k : Fin m, f ⟨k.val, by omega⟩ + ∑ k : Fin n, f ⟨m + k.val, by omega⟩ := by
  subst h
  rw [Fin.sum_univ_add]
  rfl

/-- A sum over the 2664 joined columns, by piece, added left to right. -/
theorem sum_split5 (f : Fin 2664 → EReal) :
    ∑ k : Fin 2664, f k =
      ((((∑ k : Fin 1024, f ⟨k.val, by omega⟩ + ∑ k : Fin 300, f ⟨1024 + k.val, by omega⟩)
        + ∑ k : Fin 16, f ⟨1324 + k.val, by omega⟩) + ∑ k : Fin 300, f ⟨1340 + k.val, by omega⟩)
        + ∑ k : Fin 1024, f ⟨1640 + k.val, by omega⟩) :=
  (sum_split 1640 1024 2664 rfl f).trans (congrArg (· + _)
    ((sum_split 1340 300 1640 rfl _).trans (congrArg (· + _)
      ((sum_split 1324 16 1340 rfl _).trans (congrArg (· + _)
        (sum_split 1024 300 1324 rfl _))))))

/-! ## A matrix product at an entry -/

/-- The product of an `[M, K]` array with a `[K, N]` array, at the extended reals, at entry `(p, q)`:
    the sum over `k < K` of `x (p, k) · w (k, q)`. -/
theorem dot_apply {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : Mat M K) (w : Mat K N) (p : Fin M) (q : Fin N) :
    Host.dotGeneral (F := Ideal) (φ₁ := .f32) (φ₂ := .f32) D none x w (ix2 p q) = ∑ k : Fin K, x (ix2 p k) * w (ix2 k q) := by
  simp only [Host.dotGeneral]
  rw [Ideal.dotGeneral_apply]
  exact DotPlain.sum_eq D hlc hrc hln hrn hlb hrb hr hs x w p q

/-! ## Two arrays side by side, at a column -/

/-- A column of the first piece. -/
theorem cat2_left {M K1 K2 K : Nat}
    (hc : Shape.Concatenates [(⟨2, ![M, K1]⟩ : Shape), ⟨2, ![M, K2]⟩] ⟨2, ![M, K]⟩ 1)
    (a : Mat M K1) (b : Mat M K2) (p : Fin M) (k : Fin K1) (hk : k.val < K) :
    concatenate (⟨2, ![M, K]⟩ : Shape) 1 [⟨⟨2, ![M, K1]⟩, a⟩, ⟨⟨2, ![M, K2]⟩, b⟩] hc (ix2 p ⟨k.val, hk⟩) = a (ix2 p k) :=
  concatenate_pair_apply_left 1 a b hc _ rfl (ix2 p k) (fun c => match c with | ⟨0, _⟩ => rfl | ⟨1, _⟩ => rfl)

/-- A column of the second piece. -/
theorem cat2_right {M K1 K2 K : Nat}
    (hc : Shape.Concatenates [(⟨2, ![M, K1]⟩ : Shape), ⟨2, ![M, K2]⟩] ⟨2, ![M, K]⟩ 1)
    (a : Mat M K1) (b : Mat M K2) (p : Fin M) (k : Fin K2) (hk : K1 + k.val < K) :
    concatenate (⟨2, ![M, K]⟩ : Shape) 1 [⟨⟨2, ![M, K1]⟩, a⟩, ⟨⟨2, ![M, K2]⟩, b⟩] hc (ix2 p ⟨K1 + k.val, hk⟩) = b (ix2 p k) :=
  concatenate_pair_apply_right 1 a b hc _ rfl rfl (ix2 p k)
    (fun c => match c with | ⟨0, _⟩ => fun _ => rfl | ⟨1, _⟩ => fun h => absurd rfl h)
    (Nat.add_comm _ _)

/-! ## A product against two arrays side by side -/

/-- The product of `[a | b]` with `w` at an entry is `a` against `w`'s upper rows plus `b` against its lower rows. -/
theorem dot_cat2 {M K1 K2 K N : Nat} (hK : K1 + K2 = K) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (hc : Shape.Concatenates [(⟨2, ![M, K1]⟩ : Shape), ⟨2, ![M, K2]⟩] ⟨2, ![M, K]⟩ 1)
    (a : Mat M K1) (b : Mat M K2) (w : Mat K N) (p : Fin M) (q : Fin N) :
    Host.dotGeneral (F := Ideal) (φ₁ := .f32) (φ₂ := .f32) D none
        (concatenate (⟨2, ![M, K]⟩ : Shape) 1 [⟨⟨2, ![M, K1]⟩, a⟩, ⟨⟨2, ![M, K2]⟩, b⟩] hc) w (ix2 p q)
      = band a w 0 (by omega) p q + band b w K1 (by omega) p q := by
  refine (dot_apply D hlc hrc hln hrn hlb hrb hr hs _ w p q).trans ((sum_split K1 K2 K hK _).trans ?_)
  refine congrArg₂ (· + ·) (Finset.sum_congr rfl fun k _ => ?_) (Finset.sum_congr rfl fun k _ => ?_)
  · exact congrArg₂ (· * ·) (cat2_left hc a b p k _) (congrArg (fun j => w (ix2 j q)) (Fin.ext (Nat.zero_add _).symm))
  · exact congrArg₂ (· * ·) (cat2_right hc a b p k _) rfl

/-! ## The two node updates -/

theorem nodeVis_eq (x0 x1 : Mat 20000 1024) (x5 : Mat 2048 1024) (x6 : Row 1024) :
    val_main_v5 (F := Ideal) x0 x1 x5 x6 = nodeVis x0 x1 x5 x6 := by
  funext i
  obtain ⟨p, q, rfl⟩ : ∃ (p : Fin 20000) (q : Fin 1024), i = ix2 p q := ⟨i 0, i 1, eq_ix2 i⟩
  have hb : x6 (idx_main_v2 (idx_main_v3 (ix2 p q))) = x6 (ix1 q) :=
    congrArg x6 (funext fun a => match a with | ⟨0, _⟩ => rfl)
  have hd : val_main_v1 (F := Ideal) x0 x1 x5 (ix2 p q) = band x0 x5 0 (by omega) p q + band x1 x5 1024 (by omega) p q :=
    dot_cat2 rfl dot_S20000x2048_S2048x1024_S20000x1024_1_0_0_1_n_n rfl rfl rfl rfl rfl rfl rfl rfl
      Facts₀.concatenates_S20000x1024_S20000x1024_S20000x2048_d1 x0 x1 x5 p q
  rw [val_main_v5_apply, val_main_v4_apply, val_main_call0_v0_apply, val_main_call0_cst_apply, val_main_v3_apply,
    val_main_v2_apply, hb, hd]
  simp only [Ideal.maximumf_def, Ideal.addf_def, Ideal.ofBits_def, Ideal.ofBits_zero_f32]
  rfl

theorem nodeLang_eq (x2 x3 : Mat 20000 300) (x7 : Mat 600 300) (x8 : Row 300) :
    val_main_v11 (F := Ideal) x2 x3 x7 x8 = nodeLang x2 x3 x7 x8 := by
  funext i
  obtain ⟨p, q, rfl⟩ : ∃ (p : Fin 20000) (q : Fin 300), i = ix2 p q := ⟨i 0, i 1, eq_ix2 i⟩
  have hb : x8 (idx_main_v8 (idx_main_v9 (ix2 p q))) = x8 (ix1 q) :=
    congrArg x8 (funext fun a => match a with | ⟨0, _⟩ => rfl)
  have hd : val_main_v7 (F := Ideal) x2 x3 x7 (ix2 p q) = band x2 x7 0 (by omega) p q + band x3 x7 300 (by omega) p q :=
    dot_cat2 rfl dot_S20000x600_S600x300_S20000x300_1_0_0_1_n_n rfl rfl rfl rfl rfl rfl rfl rfl
      Facts₀.concatenates_S20000x300_S20000x300_S20000x600_d1 x2 x3 x7 p q
  rw [val_main_v11_apply, val_main_v10_apply, val_main_call1_v0_apply, val_main_call1_cst_apply, val_main_v9_apply,
    val_main_v8_apply, hb, hd]
  simp only [Ideal.maximumf_def, Ideal.addf_def, Ideal.ofBits_def, Ideal.ofBits_zero_f32]
  rfl

/-! ## Five arrays side by side, at a column -/

/-- The five pieces of an edge's row laid side by side: columns `0 … 1023`, `1024 … 1323`, `1324 … 1339`,
    `1340 … 1639`, `1640 … 2663`. -/
def cat5 (fd : Mat 100000 1024) (ld : Mat 100000 300) (sf : Mat 100000 16) (ls : Mat 100000 300) (fs : Mat 100000 1024) :
    Mat 100000 2664 :=
  concatenate S100000x2664 1 [⟨S100000x1024, fd⟩, ⟨S100000x300, ld⟩, ⟨S100000x16, sf⟩, ⟨S100000x300, ls⟩, ⟨S100000x1024, fs⟩]
    Facts₀.concatenates_S100000x1024_S100000x300_S100000x16_S100000x300_S100000x1024_S100000x2664_d1

section Cat5
variable (fd : Mat 100000 1024) (ld : Mat 100000 300) (sf : Mat 100000 16) (ls : Mat 100000 300) (fs : Mat 100000 1024)
  (p : Fin 100000)

theorem cat5_0 (k : Fin 1024) (hk : k.val < 2664) : cat5 fd ld sf ls fs (ix2 p ⟨k.val, hk⟩) = fd (ix2 p k) :=
  concatenate_apply_piece 1 _ _ (ix2 p ⟨k.val, hk⟩) 0 (by simp) S100000x1024 fd rfl rfl 0 rfl (ix2 p k)
    (fun c => match c with | ⟨0, _⟩ => fun _ => rfl | ⟨1, _⟩ => fun h => absurd rfl h) (Nat.zero_add _)

theorem cat5_1 (k : Fin 300) (hk : 1024 + k.val < 2664) : cat5 fd ld sf ls fs (ix2 p ⟨1024 + k.val, hk⟩) = ld (ix2 p k) :=
  concatenate_apply_piece 1 _ _ (ix2 p ⟨1024 + k.val, hk⟩) 1 (by simp) S100000x300 ld rfl rfl 1024 rfl (ix2 p k)
    (fun c => match c with | ⟨0, _⟩ => fun _ => rfl | ⟨1, _⟩ => fun h => absurd rfl h) rfl

theorem cat5_2 (k : Fin 16) (hk : 1324 + k.val < 2664) : cat5 fd ld sf ls fs (ix2 p ⟨1324 + k.val, hk⟩) = sf (ix2 p k) :=
  concatenate_apply_piece 1 _ _ (ix2 p ⟨1324 + k.val, hk⟩) 2 (by simp) S100000x16 sf rfl rfl 1324 rfl (ix2 p k)
    (fun c => match c with | ⟨0, _⟩ => fun _ => rfl | ⟨1, _⟩ => fun h => absurd rfl h) rfl

theorem cat5_3 (k : Fin 300) (hk : 1340 + k.val < 2664) : cat5 fd ld sf ls fs (ix2 p ⟨1340 + k.val, hk⟩) = ls (ix2 p k) :=
  concatenate_apply_piece 1 _ _ (ix2 p ⟨1340 + k.val, hk⟩) 3 (by simp) S100000x300 ls rfl rfl 1340 rfl (ix2 p k)
    (fun c => match c with | ⟨0, _⟩ => fun _ => rfl | ⟨1, _⟩ => fun h => absurd rfl h) rfl

theorem cat5_4 (k : Fin 1024) (hk : 1640 + k.val < 2664) : cat5 fd ld sf ls fs (ix2 p ⟨1640 + k.val, hk⟩) = fs (ix2 p k) :=
  concatenate_apply_piece 1 _ _ (ix2 p ⟨1640 + k.val, hk⟩) 4 (by simp) S100000x1024 fs rfl rfl 1640 rfl (ix2 p k)
    (fun c => match c with | ⟨0, _⟩ => fun _ => rfl | ⟨1, _⟩ => fun h => absurd rfl h) rfl

/-- The product of the five joined pieces with `w` at an entry: each piece against its own band of `w`'s rows,
    added left to right. -/
theorem dot_cat5 (w : Mat 2664 1024) (q : Fin 1024) :
    Host.dotGeneral (F := Ideal) (φ₁ := .f32) (φ₂ := .f32) dot_S100000x2664_S2664x1024_S100000x1024_1_0_0_1_n_n none
        (cat5 fd ld sf ls fs) w (ix2 p q)
      = ((((band fd w 0 (by omega) p q + band ld w 1024 (by omega) p q) + band sf w 1324 (by omega) p q)
          + band ls w 1340 (by omega) p q) + band fs w 1640 (by omega) p q) := by
  refine (dot_apply dot_S100000x2664_S2664x1024_S100000x1024_1_0_0_1_n_n rfl rfl rfl rfl rfl rfl rfl rfl _ w p q).trans
    ((sum_split5 _).trans ?_)
  refine congrArg₂ (· + ·) (congrArg₂ (· + ·) (congrArg₂ (· + ·) (congrArg₂ (· + ·)
    (Finset.sum_congr rfl fun k _ => ?_) (Finset.sum_congr rfl fun k _ => ?_)) (Finset.sum_congr rfl fun k _ => ?_))
    (Finset.sum_congr rfl fun k _ => ?_)) (Finset.sum_congr rfl fun k _ => ?_)
  · exact congrArg₂ (· * ·) (cat5_0 fd ld sf ls fs p k _) (congrArg (fun j => w (ix2 j q)) (Fin.ext (Nat.zero_add _).symm))
  · exact congrArg₂ (· * ·) (cat5_1 fd ld sf ls fs p k _) rfl
  · exact congrArg₂ (· * ·) (cat5_2 fd ld sf ls fs p k _) rfl
  · exact congrArg₂ (· * ·) (cat5_3 fd ld sf ls fs p k _) rfl
  · exact congrArg₂ (· * ·) (cat5_4 fd ld sf ls fs p k _) rfl

end Cat5

/-! ## The edge classifier -/

section Edge
variable (x0 x1 : Mat 20000 1024) (x2 x3 : Mat 20000 300) (x4 : Mat 100000 16) (x5 : Mat 2048 1024) (x6 : Row 1024)
  (x7 : Mat 600 300) (x8 : Row 300) (x9 : Mat 2664 1024) (x10 : Row 1024) (x11 : Mat 1024 117) (x12 : Row 117)
  (x13 x14 : (⟨S100000, .i32⟩ : BufTy).Contents (Elt Ideal))

/-- The hidden layer over the four gathered arrays and the edge's own features. -/
theorem hidden_eq :
    val_main_v45 (F := Ideal) x0 x1 x2 x3 x4 x5 x6 x7 x8 x9 x10 x13 x14
      = hidden (val_main_v18 (F := Ideal) x0 x1 x5 x6 x14) (val_main_v25 (F := Ideal) x2 x3 x7 x8 x14) x4
          (val_main_v32 (F := Ideal) x2 x3 x7 x8 x13) (val_main_v39 (F := Ideal) x0 x1 x5 x6 x13) x9 x10 := by
  funext i
  obtain ⟨p, q, rfl⟩ : ∃ (p : Fin 100000) (q : Fin 1024), i = ix2 p q := ⟨i 0, i 1, eq_ix2 i⟩
  have hb : x10 (idx_main_v42 (idx_main_v43 (ix2 p q))) = x10 (ix1 q) :=
    congrArg x10 (funext fun a => match a with | ⟨0, _⟩ => rfl)
  have hd : val_main_v41 (F := Ideal) x0 x1 x2 x3 x4 x5 x6 x7 x8 x9 x13 x14 (ix2 p q) = _ :=
    dot_cat5 (val_main_v18 (F := Ideal) x0 x1 x5 x6 x14) (val_main_v25 (F := Ideal) x2 x3 x7 x8 x14) x4
      (val_main_v32 (F := Ideal) x2 x3 x7 x8 x13) (val_main_v39 (F := Ideal) x0 x1 x5 x6 x13) p x9 q
  rw [val_main_v45_apply, val_main_v44_apply, val_main_call2_v0_apply, val_main_call2_cst_apply, val_main_v43_apply,
    val_main_v42_apply, hb, hd]
  simp only [Ideal.maximumf_def, Ideal.addf_def, Ideal.ofBits_def, Ideal.ofBits_zero_f32]
  rfl

/-- The output layer over the hidden layer. -/
theorem logits_eq :
    val_main_v49 (F := Ideal) x0 x1 x2 x3 x4 x5 x6 x7 x8 x9 x10 x11 x12 x13 x14
      = logits (val_main_v45 (F := Ideal) x0 x1 x2 x3 x4 x5 x6 x7 x8 x9 x10 x13 x14) x11 x12 := by
  funext i
  obtain ⟨p, q, rfl⟩ : ∃ (p : Fin 100000) (q : Fin 117), i = ix2 p q := ⟨i 0, i 1, eq_ix2 i⟩
  have hb : x12 (idx_main_v47 (idx_main_v48 (ix2 p q))) = x12 (ix1 q) :=
    congrArg x12 (funext fun a => match a with | ⟨0, _⟩ => rfl)
  have hd : val_main_v46 (F := Ideal) x0 x1 x2 x3 x4 x5 x6 x7 x8 x9 x10 x11 x13 x14 (ix2 p q)
      = band (val_main_v45 (F := Ideal) x0 x1 x2 x3 x4 x5 x6 x7 x8 x9 x10 x13 x14) x11 0 (by omega) p q :=
    (dot_apply dot_S100000x1024_S1024x117_S100000x117_1_0_0_1_n_n rfl rfl rfl rfl rfl rfl rfl rfl _ x11 p q).trans
      (Finset.sum_congr rfl fun k _ => congrArg (fun j => _ * x11 (ix2 j q)) (Fin.ext (Nat.zero_add _).symm))
  rw [val_main_v49_apply, val_main_v48_apply, val_main_v47_apply, hb, hd]
  rfl

/-- THE REFERENCE'S VALUE: the program's result is the specification at the program's fifteen arguments, the two
    index arrays brought into range and shaped as one column by the program's own integer stages. -/
theorem ref_eq :
    val_main_v49 (F := Ideal) x0 x1 x2 x3 x4 x5 x6 x7 x8 x9 x10 x11 x12 x13 x14
      = pred x0 x1 x2 x3 x4 x5 x6 x7 x8 x9 x10 x11 x12
          gather_S20000x1024_S100000x1_S100000x1024_1_0_n_n_0_1_11024 gather_S20000x300_S100000x1_S100000x300_1_0_n_n_0_1_1300
          (val_main_v17 (F := Ideal) x14) (val_main_v31 (F := Ideal) x13) := by
  rw [logits_eq, hidden_eq]
  unfold pred val_main_v18 val_main_v25 val_main_v32 val_main_v39
  rw [nodeVis_eq, nodeLang_eq]
  rfl

end Edge

end Cert.RefValue

end
-- ==== Proof.lean ====
/-
  The certificate's five claims.

  The three frames: the two kernel programs' by their launch-side certificates, the reference's by its run with the
  result dropped.  The idealization rewrote nothing, so it preserves the program trivially.  The algebraic claim: both
  idealized programs compute the same edge read-out of the fifteen arguments over the extended reals.  The kernel
  side's two launches and the host lines between them compose to the read-out with every matrix product split along
  the bands of rows of its weight matrix; the reference concatenates the inputs first and takes one product; a sum
  over the concatenated axis is the sum of the sums over the pieces, which holds in any commutative additive monoid,
  so no finiteness of the inputs is used.  The row gathers are the same operation on both sides at equal operands.
-/
import proofs.«160440_j44023414784183_2_alg».proof.Defs
import proofs.«160440_j44023414784183_2_alg».proof.Proof.Gen.Kernel
import proofs.«160440_j44023414784183_2_alg».proof.Proof.Gen.Kernel.Frame
import proofs.«160440_j44023414784183_2_alg».proof.Proof.Gen.KernelIdeal
import proofs.«160440_j44023414784183_2_alg».proof.Proof.Gen.KernelIdeal.Frame
import proofs.«160440_j44023414784183_2_alg».proof.Proof.Gen.ReferenceIdeal
import proofs.«160440_j44023414784183_2_alg».proof.Proof.Gen.Pre_finite_inputs
import proofs.«160440_j44023414784183_2_alg».proof.Proof.Gen.ReferenceIdeal.Run
import proofs.«160440_j44023414784183_2_alg».proof.Proof.Gen.ReferenceIdeal.Read
import proofs.«160440_j44023414784183_2_alg».proof.Proof.KernelRun
import proofs.«160440_j44023414784183_2_alg».proof.Proof.KernelValue
import proofs.«160440_j44023414784183_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's read-out of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v51), Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v49_eq, Cert.RefValue.ref_eq, a0, a1, a2, a3, a4, a5, a6, a7, a8, a9, a10, a11, a12, a13, a14]
  exact (Cert.KernelIdeal.HostVal.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
